-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v14_0)) (v1 : (c : Dev Cert.KernelIdeal.nD) → Buf (Elt Ideal) ((c.tc : Thread Cert.KernelIdeal.nD Cert.KernelIdeal.τ).loc Cert.KernelIdeal.main_v14_1)) (v2 : (c : Dev Cert.KernelIdeal.nD) → Buf (Elt Ideal) ((c.tc : Thread Cert.KernelIdeal.nD Cert.KernelIdeal.τ).loc Cert.KernelIdeal.main_v14_2)) (v3 : (c : Dev Cert.KernelIdeal.nD) → Buf (Elt Ideal) ((c.tc : Thread Cert.KernelIdeal.nD Cert.KernelIdeal.τ).loc Cert.KernelIdeal.main_v14_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14_0) = v0 c
          ∧ r.2.mem ((c.tc : Thread Cert.KernelIdeal.nD Cert.KernelIdeal.τ).loc Cert.KernelIdeal.main_v14_1) = v1 c
          ∧ r.2.mem ((c.tc : Thread Cert.KernelIdeal.nD Cert.KernelIdeal.τ).loc Cert.KernelIdeal.main_v14_2) = v2 c
          ∧ r.2.mem ((c.tc : Thread Cert.KernelIdeal.nD Cert.KernelIdeal.τ).loc Cert.KernelIdeal.main_v14_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v27) = v1 c
          ∧ r.2.mem ((c.tc : Thread Cert.ReferenceIdeal.nD Cert.ReferenceIdeal.τ).loc Cert.ReferenceIdeal.main_v17) = v2 c
          ∧ r.2.mem ((c.tc : Thread Cert.ReferenceIdeal.nD Cert.ReferenceIdeal.τ).loc Cert.ReferenceIdeal.main_v22) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S32x128 : Shape := ⟨2, ![32, 128]⟩
abbrev S32 : Shape := ⟨1, ![32]⟩
abbrev S32x32 : Shape := ⟨2, ![32, 32]⟩
abbrev S10000x32 : Shape := ⟨2, ![10000, 32]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S32x128 : S_.BroadcastsInDim S32x128 (![] : Fin 0 → Fin S32x128.rank)
  reducesTo_S32x128_S_d0_1 : S32x128.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S10000x32 : S_.BroadcastsInDim S10000x32 (![] : Fin 0 → Fin S10000x32.rank)
  reducesTo_S10000x32_S_d0_1 : S10000x32.ReducesTo [0, 1] S_

variable [Facts]

def fn_part4 {F : FTy → Type} [FloatOps F] (main_arg14 : FVec F S10000x32 .f32) (main_v63 : IVec S_ 1) (main_v67 : IVec S_ 1) : IVec S_ 1 :=
  let main_v68 : IVec S_ 1 := andi main_v63 main_v67
  let main_v69 : FVec F S10000x32 .f32 := Host.absf main_arg14
  let main_cst_26 : FVec F S_ .f32 := constant S_ .f32 0x7F800000#32
  let main_v70 : FVec F S10000x32 .f32 := broadcastInDim S10000x32 ![] bcast_S_S10000x32 main_cst_26
  let main_v71 : IVec S10000x32 1 := cmpf .olt main_v69 main_v70
  let main_c_27 : IVec S_ 1 := constantI S_ 1 1#1
  let main_v72 : IVec S_ 1 := (fun x v => Host.reduce IntOp.andi x v reducesTo_S10000x32_S_d0_1 h_S_) main_v71 main_c_27
  let main_v73 : IVec S_ 1 := andi main_v68 main_v72
  main_v73

def fn_part3 {F : FTy → Type} [FloatOps F] (main_arg11 : FVec F S32 .f32) (main_arg12 : FVec F S32x32 .f32) (main_arg13 : FVec F S32 .f32) (main_arg14 : FVec F S10000x32 .f32) (main_v48 : IVec S_ 1) (main_v49 : FVec F S32x32 .f32) (main_v50 : FVec F S32x32 .f32) : IVec S_ 1 :=
  let main_v51 : IVec S32x32 1 := cmpf .olt main_v49 main_v50
  let main_c_19 : IVec S_ 1 := constantI S_ 1 1#1
  let main_v52 : IVec S_ 1 := (fun x v => Host.reduce IntOp.andi x v reducesTo_S32x32_S_d0_1 h_S_) main_v51 main_c_19
  let main_v53 : IVec S_ 1 := andi main_v48 main_v52
  let main_v54 : FVec F S32 .f32 := Host.absf main_arg11
  let main_cst_20 : FVec F S_ .f32 := constant S_ .f32 0x7F800000#32
  let main_v55 : FVec F S32 .f32 := broadcastInDim S32 ![] bcast_S_S32 main_cst_20
  let main_v56 : IVec S32 1 := cmpf .olt main_v54 main_v55
  let main_c_21 : IVec S_ 1 := constantI S_ 1 1#1
  let main_v57 : IVec S_ 1 := (fun x v => Host.reduce IntOp.andi x v reducesTo_S32_S_d0 h_S_) main_v56 main_c_21
  let main_v58 : IVec S_ 1 := andi main_v53 main_v57
  let main_v59 : FVec F S32x32 .f32 := Host.absf main_arg12
  let main_cst_22 : FVec F S_ .f32 := constant S_ .f32 0x7F800000#32
  let main_v60 : FVec F S32x32 .f32 := broadcastInDim S32x32 ![] bcast_S_S32x32 main_cst_22
  let main_v61 : IVec S32x32 1 := cmpf .olt main_v59 main_v60
  let main_c_23 : IVec S_ 1 := constantI S_ 1 1#1
  let main_v62 : IVec S_ 1 := (fun x v => Host.reduce IntOp.andi x v reducesTo_S32x32_S_d0_1 h_S_) main_v61 main_c_23
  let main_v63 : IVec S_ 1 := andi main_v58 main_v62
  let main_v64 : FVec F S32 .f32 := Host.absf main_arg13
  let main_cst_24 : FVec F S_ .f32 := constant S_ .f32 0x7F800000#32
  let main_v65 : FVec F S32 .f32 := broadcastInDim S32 ![] bcast_S_S32 main_cst_24
  let main_v66 : IVec S32 1 := cmpf .olt main_v64 main_v65
  let main_c_25 : IVec S_ 1 := constantI S_ 1 1#1
  let main_v67 : IVec S_ 1 := (fun x v => Host.reduce IntOp.andi x v reducesTo_S32_S_d0 h_S_) main_v66 main_c_25
  fn_part4 (F := F) main_arg14 main_v63 main_v67

def fn_part2 {F : FTy → Type} [FloatOps F] (main_arg7 : FVec F S32 .f32) (main_arg8 : FVec F S32x32 .f32) (main_arg9 : FVec F S32 .f32) (main_arg10 : FVec F S32x32 .f32) (main_arg11 : FVec F S32 .f32) (main_arg12 : FVec F S32x32 .f32) (main_arg13 : FVec F S32 .f32) (main_arg14 : FVec F S10000x32 .f32) (main_v33 : IVec S_ 1) : IVec S_ 1 :=
  let main_v34 : FVec F S32 .f32 := Host.absf main_arg7
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S32x32 .f32 := Host.absf main_arg8
  let main_cst_14 : FVec F S_ .f32 := constant S_ .f32 0x7F800000#32
  let main_v40 : FVec F S32x32 .f32 := broadcastInDim S32x32 ![] bcast_S_S32x32 main_cst_14
  let main_v41 : IVec S32x32 1 := cmpf .olt main_v39 main_v40
  let main_c_15 : IVec S_ 1 := constantI S_ 1 1#1
  let main_v42 : IVec S_ 1 := (fun x v => Host.reduce IntOp.andi x v reducesTo_S32x32_S_d0_1 h_S_) main_v41 main_c_15
  let main_v43 : IVec S_ 1 := andi main_v38 main_v42
  let main_v44 : FVec F S32 .f32 := Host.absf main_arg9
  let main_cst_16 : FVec F S_ .f32 := constant S_ .f32 0x7F800000#32
  let main_v45 : FVec F S32 .f32 := broadcastInDim S32 ![] bcast_S_S32 main_cst_16
  let main_v46 : IVec S32 1 := cmpf .olt main_v44 main_v45
  let main_c_17 : IVec S_ 1 := constantI S_ 1 1#1
  let main_v47 : IVec S_ 1 := (fun x v => Host.reduce IntOp.andi x v reducesTo_S32_S_d0 h_S_) main_v46 main_c_17
  let main_v48 : IVec S_ 1 := andi main_v43 main_v47
  let main_v49 : FVec F S32x32 .f32 := Host.absf main_arg10
  let main_cst_18 : FVec F S_ .f32 := constant S_ .f32 0x7F800000#32
  let main_v50 : FVec F S32x32 .f32 := broadcastInDim S32x32 ![] bcast_S_S32x32 main_cst_18
  fn_part3 (F := F) main_arg11 main_arg12 main_arg13 main_arg14 main_v48 main_v49 main_v50

def fn_part1 {F : FTy → Type} [FloatOps F] (main_arg4 : FVec F S32x32 .f32) (main_arg5 : FVec F S32 .f32) (main_arg6 : FVec F S32x32 .f32) (main_arg7 : FVec F S32 .f32) (main_arg8 : FVec F S32x32 .f32) (main_arg9 : FVec F S32 .f32) (main_arg10 : FVec F S32x32 .f32) (main_arg11 : FVec F S32 .f32) (main_arg12 : FVec F S32x32 .f32) (main_arg13 : FVec F S32 .f32) (main_arg14 : FVec F S10000x32 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32x32 .f32 := Host.absf main_arg4
  let main_cst_6 : FVec F S_ .f32 := constant S_ .f32 0x7F800000#32
  let main_v20 : FVec F S32x32 .f32 := broadcastInDim S32x32 ![] bcast_S_S32x32 main_cst_6
  let main_v21 : IVec S32x32 1 := cmpf .olt main_v19 main_v20
  let main_c_7 : IVec S_ 1 := constantI S_ 1 1#1
  let main_v22 : IVec S_ 1 := (fun x v => Host.reduce IntOp.andi x v reducesTo_S32x32_S_d0_1 h_S_) main_v21 main_c_7
  let main_v23 : IVec S_ 1 := andi main_v18 main_v22
  let main_v24 : FVec F S32 .f32 := Host.absf main_arg5
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32x32 .f32 := Host.absf main_arg6
  let main_cst_10 : FVec F S_ .f32 := constant S_ .f32 0x7F800000#32
  let main_v30 : FVec F S32x32 .f32 := broadcastInDim S32x32 ![] bcast_S_S32x32 main_cst_10
  let main_v31 : IVec S32x32 1 := cmpf .olt main_v29 main_v30
  let main_c_11 : IVec S_ 1 := constantI S_ 1 1#1
  let main_v32 : IVec S_ 1 := (fun x v => Host.reduce IntOp.andi x v reducesTo_S32x32_S_d0_1 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S10000x128 .f32) (main_arg1 : FVec F S10000x10000 .f32) (main_arg2 : FVec F S32x128 .f32) (main_arg3 : FVec F S32 .f32) (main_arg4 : FVec F S32x32 .f32) (main_arg5 : FVec F S32 .f32) (main_arg6 : FVec F S32x32 .f32) (main_arg7 : FVec F S32 .f32) (main_arg8 : FVec F S32x32 .f32) (main_arg9 : FVec F S32 .f32) (main_arg10 : FVec F S32x32 .f32) (main_arg11 : FVec F S32 .f32) (main_arg12 : FVec F S32x32 .f32) (main_arg13 : FVec F S32 .f32) (main_arg14 : FVec F S10000x32 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S32x128 .f32 := Host.absf main_arg2
  let main_cst_2 : FVec F S_ .f32 := constant S_ .f32 0x7F800000#32
  let main_v10 : FVec F S32x128 .f32 := broadcastInDim S32x128 ![] bcast_S_S32x128 main_cst_2
  let main_v11 : IVec S32x128 1 := cmpf .olt main_v9 main_v10
  let main_c_3 : IVec S_ 1 := constantI S_ 1 1#1
  let main_v12 : IVec S_ 1 := (fun x v => Host.reduce IntOp.andi x v reducesTo_S32x128_S_d0_1 h_S_) main_v11 main_c_3
  let main_v13 : IVec S_ 1 := andi main_v8 main_v12
  let main_v14 : FVec F S32 .f32 := Host.absf main_arg3
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S10000x128 : Shape := ⟨2, ![10000, 128]⟩
abbrev S10000x10000 : Shape := ⟨2, ![10000, 10000]⟩
abbrev S32x128 : Shape := ⟨2, ![32, 128]⟩
abbrev S32 : Shape := ⟨1, ![32]⟩
abbrev S32x32 : Shape := ⟨2, ![32, 32]⟩
abbrev S10000x32 : Shape := ⟨2, ![10000, 32]⟩
abbrev S128x32 : Shape := ⟨2, ![128, 32]⟩
abbrev S1x32 : Shape := ⟨2, ![1, 32]⟩
abbrev S400x10000 : Shape := ⟨2, ![400, 10000]⟩
abbrev S400x32 : Shape := ⟨2, ![400, 32]⟩

abbrev nBuf : Space → Nat
  | .hbm => 33
  | .vmem => 32
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S32x128, .f32⟩
  | .hbm, ⟨3, _⟩ => ⟨S32, .f32⟩
  | .hbm, ⟨4, _⟩ => ⟨S32x32, .f32⟩
  | .hbm, ⟨5, _⟩ => ⟨S32, .f32⟩
  | .hbm, ⟨6, _⟩ => ⟨S32x32, .f32⟩
  | .hbm, ⟨7, _⟩ => ⟨S32, .f32⟩
  | .hbm, ⟨8, _⟩ => ⟨S32x32, .f32⟩
  | .hbm, ⟨9, _⟩ => ⟨S32, .f32⟩
  | .hbm, ⟨10, _⟩ => ⟨S32x32, .f32⟩
  | .hbm, ⟨11, _⟩ => ⟨S32, .f32⟩
  | .hbm, ⟨12, _⟩ => ⟨S32x32, .f32⟩
  | .hbm, ⟨13, _⟩ => ⟨S32, .f32⟩
  | .hbm, ⟨14, _⟩ => ⟨S10000x32, .f32⟩
  | .hbm, ⟨15, _⟩ => ⟨S128x32, .f32⟩
  | .hbm, ⟨16, _⟩ => ⟨S32x32, .f32⟩
  | .hbm, ⟨17, _⟩ => ⟨S32x32, .f32⟩
  | .hbm, ⟨18, _⟩ => ⟨S32x32, .f32⟩
  | .hbm, ⟨19, _⟩ => ⟨S32x32, .f32⟩
  | .hbm, ⟨20, _⟩ => ⟨S32x32, .f32⟩
  | .hbm, ⟨21, _⟩ => ⟨S1x32, .f32⟩
  | .hbm, ⟨22, _⟩ => ⟨S1x32, .f32⟩
  | .hbm, ⟨23, _⟩ => ⟨S1x32, .f32⟩
  | .hbm, ⟨24, _⟩ => ⟨S1x32, .f32⟩
  | .hbm, ⟨25, _⟩ => ⟨S1x32, .f32⟩
  | .hbm, ⟨26, _⟩ => ⟨S1x32, .f32⟩
  | .hbm, ⟨27, _⟩ => ⟨S10000x32, .f32⟩
  | .hbm, ⟨28, _⟩ => ⟨S10000x32, .f32⟩
  | .hbm, ⟨29, _⟩ => ⟨S10000x32, .f32⟩
  | .hbm, ⟨30, _⟩ => ⟨S10000x32, .f32⟩
  | .hbm, ⟨31, _⟩ => ⟨S10000x32, .f32⟩
  | .hbm, ⟨32, _⟩ => ⟨S10000x32, .f32⟩
  | .local _ .vmem, ⟨0, _⟩ => ⟨S10000x128, .f32⟩
  | .local _ .vmem, ⟨1, _⟩ => ⟨S128x32, .f32⟩
  | .local _ .vmem, ⟨2, _⟩ => ⟨S1x32, .f32⟩
  | .local _ .vmem, ⟨3, _⟩ => ⟨S10000x32, .f32⟩
  | .local _ .vmem, ⟨4, _⟩ => ⟨S400x10000, .f32⟩
  | .local _ .vmem, ⟨5, _⟩ => ⟨S400x10000, .f32⟩
  | .local _ .vmem, ⟨6, _⟩ => ⟨S10000x32, .f32⟩
  | .local _ .vmem, ⟨7, _⟩ => ⟨S32x32, .f32⟩
  | .local _ .vmem, ⟨8, _⟩ => ⟨S1x32, .f32⟩
  | .local _ .vmem, ⟨9, _⟩ => ⟨S400x32, .f32⟩
  | .local _ .vmem, ⟨10, _⟩ => ⟨S400x32, .f32⟩
  | .local _ .vmem, ⟨11, _⟩ => ⟨S400x10000, .f32⟩
  | .local _ .vmem, ⟨12, _⟩ => ⟨S400x10000, .f32⟩
  | .local _ .vmem, ⟨13, _⟩ => ⟨S10000x32, .f32⟩
  | .local _ .vmem, ⟨14, _⟩ => ⟨S32x32, .f32⟩
  | .local _ .vmem, ⟨15, _⟩ => ⟨S1x32, .f32⟩
  | .local _ .vmem, ⟨16, _⟩ => ⟨S32x32, .f32⟩
  | .local _ .vmem, ⟨17, _⟩ => ⟨S1x32, .f32⟩
  | .local _ .vmem, ⟨18, _⟩ => ⟨S32x32, .f32⟩
  | .local _ .vmem, ⟨19, _⟩ => ⟨S1x32, .f32⟩
  | .local _ .vmem, ⟨20, _⟩ => ⟨S32x32, .f32⟩
  | .local _ .vmem, ⟨21, _⟩ => ⟨S1x32, .f32⟩
  | .local _ .vmem, ⟨22, _⟩ => ⟨S400x32, .f32⟩
  | .local _ .vmem, ⟨23, _⟩ => ⟨S400x32, .f32⟩
  | .local _ .vmem, ⟨24, _⟩ => ⟨S400x32, .f32⟩
  | .local _ .vmem, ⟨25, _⟩ => ⟨S400x32, .f32⟩
  | .local _ .vmem, ⟨26, _⟩ => ⟨S400x32, .f32⟩
  | .local _ .vmem, ⟨27, _⟩ => ⟨S400x32, .f32⟩
  | .local _ .vmem, ⟨28, _⟩ => ⟨S400x32, .f32⟩
  | .local _ .vmem, ⟨29, _⟩ => ⟨S400x32, .f32⟩
  | .local _ .vmem, ⟨30, _⟩ => ⟨S400x32, .f32⟩
  | .local _ .vmem, ⟨31, _⟩ => ⟨S400x32, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14_0 : Ref sig .tc := ⟨.hbm, 29, rfl⟩
abbrev main_v14_1 : Ref sig .tc := ⟨.hbm, 30, rfl⟩
abbrev main_v14_2 : Ref sig .tc := ⟨.hbm, 31, rfl⟩
abbrev main_v14_3 : Ref sig .tc := ⟨.hbm, 32, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg4_0 : Ref sig .tc := ⟨.vmem, 9, rfl⟩
abbrev cc1_stg4_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg5_0 : Ref sig .tc := ⟨.vmem, 17, rfl⟩
abbrev cc2_stg6_0 : Ref sig .tc := ⟨.vmem, 18, rfl⟩
abbrev cc2_stg7_0 : Ref sig .tc := ⟨.vmem, 19, rfl⟩
abbrev cc2_stg8_0 : Ref sig .tc := ⟨.vmem, 20, rfl⟩
abbrev cc2_stg9_0 : Ref sig .tc := ⟨.vmem, 21, rfl⟩
abbrev cc2_stg10_0 : Ref sig .tc := ⟨.vmem, 22, rfl⟩
abbrev cc2_stg10_1 : Ref sig .tc := ⟨.vmem, 23, rfl⟩
abbrev cc2_stg11_0 : Ref sig .tc := ⟨.vmem, 24, rfl⟩
abbrev cc2_stg11_1 : Ref sig .tc := ⟨.vmem, 25, rfl⟩
abbrev cc2_stg12_0 : Ref sig .tc := ⟨.vmem, 26, rfl⟩
abbrev cc2_stg12_1 : Ref sig .tc := ⟨.vmem, 27, rfl⟩
abbrev cc2_stg13_0 : Ref sig .tc := ⟨.vmem, 28, rfl⟩
abbrev cc2_stg13_1 : Ref sig .tc := ⟨.vmem, 29, rfl⟩
abbrev cc2_stg14_0 : Ref sig .tc := ⟨.vmem, 30, rfl⟩
abbrev cc2_stg14_1 : Ref sig .tc := ⟨.vmem, 31, rfl⟩
abbrev cc0_sem0_0 : DmaSem sig := 0
abbrev cc0_sem1_0 : DmaSem sig := 1
abbrev cc0_sem2_0 : DmaSem sig := 2
abbrev cc0_sem3_0 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem4_0 : DmaSem sig := 9
abbrev cc1_sem4_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem4_0 : DmaSem sig := 16
abbrev cc2_sem5_0 : DmaSem sig := 17
abbrev cc2_sem6_0 : DmaSem sig := 18
abbrev cc2_sem7_0 : DmaSem sig := 19
abbrev cc2_sem8_0 : DmaSem sig := 20
abbrev cc2_sem9_0 : DmaSem sig := 21
abbrev cc2_sem10_0 : DmaSem sig := 22
abbrev cc2_sem10_1 : DmaSem sig := 23
abbrev cc2_sem11_0 : DmaSem sig := 24
abbrev cc2_sem11_1 : DmaSem sig := 25
abbrev cc2_sem12_0 : DmaSem sig := 26
abbrev cc2_sem12_1 : DmaSem sig := 27
abbrev cc2_sem13_0 : DmaSem sig := 28
abbrev cc2_sem13_1 : DmaSem sig := 29
abbrev cc2_sem14_0 : DmaSem sig := 30
abbrev cc2_sem14_1 : DmaSem sig := 31

abbrev nD : Nat := 1
abbrev τ : Topo := Topo.v7x

variable {F : FTy → Type} [FloatOps F]

abbrev grid0 : Pipeline.Grid := .none

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S10000x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S32x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S400x32 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_11 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_12 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_13 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_14 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x10000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S32x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S32x32 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x32 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S32x32 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x32 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S32x32 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x32 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 2 → Memref sig .tc .vmem S400x32 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

abbrev stage2_11 : Fin 2 → Memref sig .tc .vmem S400x32 .f32 := fun | 0 => Memref.whole cc2_stg11_0 | 1 => Memref.whole cc2_stg11_1 | ⟨_ + 2, h⟩ => absurd h (Nat.not_lt.2 (Nat.le_add_left _ _))
abbrev sem2_11 : Fin 2 → DmaSem sig := fun | 0 => cc2_sem11_0 | 1 => cc2_sem11_1 | ⟨_ + 2, h⟩ => absurd h (Nat.not_lt.2 (Nat.le_add_left _ _))
abbrev reads2_11 : Fin grid2.rank → Bool := ![true]

abbrev stage2_12 : Fin 2 → Memref sig .tc .vmem S400x32 .f32 := fun | 0 => Memref.whole cc2_stg12_0 | 1 => Memref.whole cc2_stg12_1 | ⟨_ + 2, h⟩ => absurd h (Nat.not_lt.2 (Nat.le_add_left _ _))
abbrev sem2_12 : Fin 2 → DmaSem sig := fun | 0 => cc2_sem12_0 | 1 => cc2_sem12_1 | ⟨_ + 2, h⟩ => absurd h (Nat.not_lt.2 (Nat.le_add_left _ _))
abbrev reads2_12 : Fin grid2.rank → Bool := ![true]

abbrev stage2_13 : Fin 2 → Memref sig .tc .vmem S400x32 .f32 := fun | 0 => Memref.whole cc2_stg13_0 | 1 => Memref.whole cc2_stg13_1 | ⟨_ + 2, h⟩ => absurd h (Nat.not_lt.2 (Nat.le_add_left _ _))
abbrev sem2_13 : Fin 2 → DmaSem sig := fun | 0 => cc2_sem13_0 | 1 => cc2_sem13_1 | ⟨_ + 2, h⟩ => absurd h (Nat.not_lt.2 (Nat.le_add_left _ _))
abbrev reads2_13 : Fin grid2.rank → Bool := ![true]

abbrev stage2_14 : Fin 2 → Memref sig .tc .vmem S400x32 .f32 := fun | 0 => Memref.whole cc2_stg14_0 | 1 => Memref.whole cc2_stg14_1 | ⟨_ + 2, h⟩ => absurd h (Nat.not_lt.2 (Nat.le_add_left _ _))
abbrev sem2_14 : Fin 2 → DmaSem sig := fun | 0 => cc2_sem14_0 | 1 => cc2_sem14_1 | ⟨_ + 2, h⟩ => absurd h (Nat.not_lt.2 (Nat.le_add_left _ _))
abbrev reads2_14 : Fin grid2.rank → Bool := ![true]

class Facts₀ : Prop where
  transposes_S32x128_S128x32_1_0 : S32x128.Transposes [1, 0] S128x32
  transposes_S32x32_S32x32_1_0 : S32x32.Transposes [1, 0] S32x32
  shapeCasts_S32_S1x32 : S32.ShapeCasts S1x32
  inb_S10000x128_S10000x128_0_0 : ∀ a, (![0, 0] : Fin 2 → Nat) a + S10000x128.size a ≤ S10000x128.size a
  h_S10000x128 : 0 < S10000x128.numel
  inb_S128x32_S128x32_0_0 : ∀ a, (![0, 0] : Fin 2 → Nat) a + S128x32.size a ≤ S128x32.size a
  h_S128x32 : 0 < S128x32.numel
  shapeCasts_S128x32_S128x32 : S128x32.ShapeCasts S128x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  inb_S10000x32_S10000x32_0_0 : ∀ a, (![0, 0] : Fin 2 → Nat) a + S10000x32.size a ≤ S10000x32.size a
  h_S10000x32 : 0 < S10000x32.numel
  inb_S400x10000_S400x10000_0_0 : ∀ a, (![0, 0] : Fin 2 → Nat) a + S400x10000.size a ≤ S400x10000.size a
  h_S400x10000 : 0 < S400x10000.numel
  bitsLt_bf16_f32 : FTy.bits .bf16 < FTy.bits .f32
  shapeCasts_S10000x32_S10000x32 : S10000x32.ShapeCasts S10000x32
  inb_S32x32_S32x32_0_0 : ∀ a, (![0, 0] : Fin 2 → Nat) a + S32x32.size a ≤ S32x32.size a
  h_S32x32 : 0 < S32x32.numel
  shapeCasts_S32x32_S32x32 : S32x32.ShapeCasts S32x32
  broadcasts_S1x32_S400x32 : S1x32.Broadcasts S400x32
  inb_S400x32_S400x32_0_0 : ∀ a, (![0, 0] : Fin 2 → Nat) a + S400x32.size a ≤ S400x32.size a
  h_S400x32 : 0 < S400x32.numel
  dot_S10000x128_S128x32_S10000x32_1_0_0_1_n_n_wf : DotDims.WF S10000x128 S128x32 S10000x32 [1] [0] [0] [1] [] []
  dot_S400x10000_S10000x32_S400x32_1_0_0_1_n_n_wf : DotDims.WF S400x10000 S10000x32 S400x32 [1] [0] [0] [1] [] []
  dot_S400x32_S32x32_S400x32_1_0_0_1_n_n_wf : DotDims.WF S400x32 S32x32 S400x32 [1] [0] [0] [1] [] []
  hstage0_0 : ∀ j, (stage0_0 j).IsWhole
  hstage0_1 : ∀ j, (stage0_1 j).IsWhole
  hstage0_2 : ∀ j, (stage0_2 j).IsWhole
  hstage0_3 : ∀ j, (stage0_3 j).IsWhole
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x32.size a ≤ S10000x32.size a
  hwx1_1 : ∀ i : grid1.Coords, EltTy.bits .f32 = 32 ∨ (Rect.block (s := S10000x32) S10000x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x32.size a ≤ S32x32.size a
  hwx1_2 : ∀ i : grid1.Coords, EltTy.bits .f32 = 32 ∨ (Rect.block (s := S32x32) S32x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x32.size a ≤ S1x32.size a
  hwx1_3 : ∀ i : grid1.Coords, EltTy.bits .f32 = 32 ∨ (Rect.block (s := S1x32) S1x32.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S400x32.size a ≤ S10000x32.size a
  hwx1_4 : ∀ i : grid1.Coords, EltTy.bits .f32 = 32 ∨ (Rect.block (s := S10000x32) S400x32.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x10000.size a ≤ S10000x10000.size a
  hwx2_0 : ∀ i : grid2.Coords, EltTy.bits .f32 = 32 ∨ (Rect.block (s := S10000x10000) S400x10000.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x32.size a ≤ S10000x32.size a
  hwx2_1 : ∀ i : grid2.Coords, EltTy.bits .f32 = 32 ∨ (Rect.block (s := S10000x32) S10000x32.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S32x32.size a ≤ S32x32.size a
  hwx2_2 : ∀ i : grid2.Coords, EltTy.bits .f32 = 32 ∨ (Rect.block (s := S32x32) S32x32.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x32.size a ≤ S1x32.size a
  hwx2_3 : ∀ i : grid2.Coords, EltTy.bits .f32 = 32 ∨ (Rect.block (s := S1x32) S1x32.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S32x32.size a ≤ S32x32.size a
  hwx2_4 : ∀ i : grid2.Coords, EltTy.bits .f32 = 32 ∨ (Rect.block (s := S32x32) S32x32.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x32.size a ≤ S1x32.size a
  hwx2_5 : ∀ i : grid2.Coords, EltTy.bits .f32 = 32 ∨ (Rect.block (s := S1x32) S1x32.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S32x32.size a ≤ S32x32.size a
  hwx2_6 : ∀ i : grid2.Coords, EltTy.bits .f32 = 32 ∨ (Rect.block (s := S32x32) S32x32.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x32.size a ≤ S1x32.size a
  hwx2_7 : ∀ i : grid2.Coords, EltTy.bits .f32 = 32 ∨ (Rect.block (s := S1x32) S1x32.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S32x32.size a ≤ S32x32.size a
  hwx2_8 : ∀ i : grid2.Coords, EltTy.bits .f32 = 32 ∨ (Rect.block (s := S32x32) S32x32.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1x32.size a ≤ S1x32.size a
  hwx2_9 : ∀ i : grid2.Coords, EltTy.bits .f32 = 32 ∨ (Rect.block (s := S1x32) S1x32.size (cc2_transform_9 i) (hinb2_9 i)).WholeWords (EltTy.packing .f32)
  hstage2_10 : ∀ j, (stage2_10 j).IsWhole
  nbuf2_10 : grid2.bufCount reads2_10 false = 2
  hreads2_10 : ∀ i i' : grid2.Coords, (∀ a, reads2_10 a = true → i a = i' a) → cc2_transform_10 i = cc2_transform_10 i'
  hinb2_10 : ∀ (i : grid2.Coords) a, (cc2_transform_10 i a + 1) * S400x32.size a ≤ S10000x32.size a
  hwx2_10 : ∀ i : grid2.Coords, EltTy.bits .f32 = 32 ∨ (Rect.block (s := S10000x32) S400x32.size (cc2_transform_10 i) (hinb2_10 i)).WholeWords (EltTy.packing .f32)
  hstage2_11 : ∀ j, (stage2_11 j).IsWhole
  nbuf2_11 : grid2.bufCount reads2_11 false = 2
  hreads2_11 : ∀ i i' : grid2.Coords, (∀ a, reads2_11 a = true → i a = i' a) → cc2_transform_11 i = cc2_transform_11 i'
  hinb2_11 : ∀ (i : grid2.Coords) a, (cc2_transform_11 i a + 1) * S400x32.size a ≤ S10000x32.size a
  hwx2_11 : ∀ i : grid2.Coords, EltTy.bits .f32 = 32 ∨ (Rect.block (s := S10000x32) S400x32.size (cc2_transform_11 i) (hinb2_11 i)).WholeWords (EltTy.packing .f32)
  hstage2_12 : ∀ j, (stage2_12 j).IsWhole
  nbuf2_12 : grid2.bufCount reads2_12 false = 2
  hreads2_12 : ∀ i i' : grid2.Coords, (∀ a, reads2_12 a = true → i a = i' a) → cc2_transform_12 i = cc2_transform_12 i'
  hinb2_12 : ∀ (i : grid2.Coords) a, (cc2_transform_12 i a + 1) * S400x32.size a ≤ S10000x32.size a
  hwx2_12 : ∀ i : grid2.Coords, EltTy.bits .f32 = 32 ∨ (Rect.block (s := S10000x32) S400x32.size (cc2_transform_12 i) (hinb2_12 i)).WholeWords (EltTy.packing .f32)
  hstage2_13 : ∀ j, (stage2_13 j).IsWhole
  nbuf2_13 : grid2.bufCount reads2_13 false = 2
  hreads2_13 : ∀ i i' : grid2.Coords, (∀ a, reads2_13 a = true → i a = i' a) → cc2_transform_13 i = cc2_transform_13 i'
  hinb2_13 : ∀ (i : grid2.Coords) a, (cc2_transform_13 i a + 1) * S400x32.size a ≤ S10000x32.size a
  hwx2_13 : ∀ i : grid2.Coords, EltTy.bits .f32 = 32 ∨ (Rect.block (s := S10000x32) S400x32.size (cc2_transform_13 i) (hinb2_13 i)).WholeWords (EltTy.packing .f32)
  hstage2_14 : ∀ j, (stage2_14 j).IsWhole
  nbuf2_14 : grid2.bufCount reads2_14 false = 2
  hreads2_14 : ∀ i i' : grid2.Coords, (∀ a, reads2_14 a = true → i a = i' a) → cc2_transform_14 i = cc2_transform_14 i'
  hinb2_14 : ∀ (i : grid2.Coords) a, (cc2_transform_14 i a + 1) * S400x32.size a ≤ S10000x32.size a
  hwx2_14 : ∀ i : grid2.Coords, EltTy.bits .f32 = 32 ∨ (Rect.block (s := S10000x32) S400x32.size (cc2_transform_14 i) (hinb2_14 i)).WholeWords (EltTy.packing .f32)

variable [Facts₀]

def dot_S10000x128_S128x32_S10000x32_1_0_0_1_n_n : DotDims S10000x128 S128x32 S10000x32 where
  lhsContracting := [1]
  rhsContracting := [0]
  lhsNonContracting := [0]
  rhsNonContracting := [1]
  lhsBatch := []
  rhsBatch := []
  wf := dot_S10000x128_S128x32_S10000x32_1_0_0_1_n_n_wf
def dot_S400x10000_S10000x32_S400x32_1_0_0_1_n_n : DotDims S400x10000 S10000x32 S400x32 where
  lhsContracting := [1]
  rhsContracting := [0]
  lhsNonContracting := [0]
  rhsNonContracting := [1]
  lhsBatch := []
  rhsBatch := []
  wf := dot_S400x10000_S10000x32_S400x32_1_0_0_1_n_n_wf
def dot_S400x32_S32x32_S400x32_1_0_0_1_n_n : DotDims S400x32 S32x32 S400x32 where
  lhsContracting := [1]
  rhsContracting := [0]
  lhsNonContracting := [0]
  rhsNonContracting := [1]
  lhsBatch := []
  rhsBatch := []
  wf := dot_S400x32_S32x32_S400x32_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v0) false false (stage0_1 0) (sem0_1 0) (Memref.isWhole_whole _) (hstage0_1 0)

abbrev win0_2 : Pipeline.Window sig grid0 :=
  Pipeline.Window.whole (Memref.whole main_v6) false false (stage0_2 0) (sem0_2 0) (Memref.isWhole_whole _) (hstage0_2 0)

abbrev win0_3 : Pipeline.Window sig grid0 :=
  Pipeline.Window.whole (Memref.whole main_v12) true false (stage0_3 0) (sem0_3 0) (Memref.isWhole_whole _) (hstage0_3 0)

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S10000x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S32x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v7) S1x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v13) S400x32.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_arg1) S400x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v13) S10000x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v2) S32x32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v8) S1x32.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v3) S32x32.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v9) S1x32.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v4) S32x32.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v10) S1x32.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v5) S32x32.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v11) S1x32.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_arg14) S400x32.size cc2_transform_10 reads2_10 false false 2 stage2_10 sem2_10
    hrank2 hreads2_10 hinb2_10 nbuf2_10 (Memref.isWhole_whole _) hwx2_10 hstage2_10

abbrev win2_11 : Pipeline.Window sig grid2 :=
  Pipeline.Window.ofSpec (Memref.whole main_v14_0) S400x32.size cc2_transform_11 reads2_11 true false 2 stage2_11 sem2_11
    hrank2 hreads2_11 hinb2_11 nbuf2_11 (Memref.isWhole_whole _) hwx2_11 hstage2_11

abbrev win2_12 : Pipeline.Window sig grid2 :=
  Pipeline.Window.ofSpec (Memref.whole main_v14_1) S400x32.size cc2_transform_12 reads2_12 true false 2 stage2_12 sem2_12
    hrank2 hreads2_12 hinb2_12 nbuf2_12 (Memref.isWhole_whole _) hwx2_12 hstage2_12

abbrev win2_13 : Pipeline.Window sig grid2 :=
  Pipeline.Window.ofSpec (Memref.whole main_v14_2) S400x32.size cc2_transform_13 reads2_13 true false 2 stage2_13 sem2_13
    hrank2 hreads2_13 hinb2_13 nbuf2_13 (Memref.isWhole_whole _) hwx2_13 hstage2_13

abbrev win2_14 : Pipeline.Window sig grid2 :=
  Pipeline.Window.ofSpec (Memref.whole main_v14_3) S400x32.size cc2_transform_14 reads2_14 true false 2 stage2_14 sem2_14
    hrank2 hreads2_14 hinb2_14 nbuf2_14 (Memref.isWhole_whole _) hwx2_14 hstage2_14

abbrev win2 : Fin 15 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | 13 => win2_13 | 14 => win2_14 | ⟨_ + 15, h⟩ => absurd h (Nat.not_lt.2 (Nat.le_add_left _ _))
abbrev spec2 : Fin 15 → Pipeline.WinSpec sig grid2.rank := fun w => (win2 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S32x128 : Shape := ⟨2, ![32, 128]⟩
abbrev S32 : Shape := ⟨1, ![32]⟩
abbrev S32x32 : Shape := ⟨2, ![32, 32]⟩
abbrev S10000x32 : Shape := ⟨2, ![10000, 32]⟩
abbrev S128x32 : Shape := ⟨2, ![128, 32]⟩
abbrev S1x32 : Shape := ⟨2, ![1, 32]⟩
abbrev S_ : Shape := ⟨0, ![]⟩

abbrev nBuf : Space → Nat
  | .hbm => 59
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S32x128, .f32⟩
  | .hbm, ⟨3, _⟩ => ⟨S32, .f32⟩
  | .hbm, ⟨4, _⟩ => ⟨S32x32, .f32⟩
  | .hbm, ⟨5, _⟩ => ⟨S32, .f32⟩
  | .hbm, ⟨6, _⟩ => ⟨S32x32, .f32⟩
  | .hbm, ⟨7, _⟩ => ⟨S32, .f32⟩
  | .hbm, ⟨8, _⟩ => ⟨S32x32, .f32⟩
  | .hbm, ⟨9, _⟩ => ⟨S32, .f32⟩
  | .hbm, ⟨10, _⟩ => ⟨S32x32, .f32⟩
  | .hbm, ⟨11, _⟩ => ⟨S32, .f32⟩
  | .hbm, ⟨12, _⟩ => ⟨S32x32, .f32⟩
  | .hbm, ⟨13, _⟩ => ⟨S32, .f32⟩
  | .hbm, ⟨14, _⟩ => ⟨S10000x32, .f32⟩
  | .hbm, ⟨15, _⟩ => ⟨S128x32, .f32⟩
  | .hbm, ⟨16, _⟩ => ⟨S10000x32, .f32⟩
  | .hbm, ⟨17, _⟩ => ⟨S1x32, .f32⟩
  | .hbm, ⟨18, _⟩ => ⟨S10000x32, .f32⟩
  | .hbm, ⟨19, _⟩ => ⟨S10000x32, .f32⟩
  | .hbm, ⟨20, _⟩ => ⟨S10000x32, .f32⟩
  | .hbm, ⟨21, _⟩ => ⟨S_, .f32⟩
  | .hbm, ⟨22, _⟩ => ⟨S10000x32, .f32⟩
  | .hbm, ⟨23, _⟩ => ⟨S10000x32, .f32⟩
  | .hbm, ⟨24, _⟩ => ⟨S32x32, .f32⟩
  | .hbm, ⟨25, _⟩ => ⟨S10000x32, .f32⟩
  | .hbm, ⟨26, _⟩ => ⟨S1x32, .f32⟩
  | .hbm, ⟨27, _⟩ => ⟨S10000x32, .f32⟩
  | .hbm, ⟨28, _⟩ => ⟨S10000x32, .f32⟩
  | .hbm, ⟨29, _⟩ => ⟨S10000x32, .f32⟩
  | .hbm, ⟨30, _⟩ => ⟨S32x32, .f32⟩
  | .hbm, ⟨31, _⟩ => ⟨S10000x32, .f32⟩
  | .hbm, ⟨32, _⟩ => ⟨S1x32, .f32⟩
  | .hbm, ⟨33, _⟩ => ⟨S10000x32, .f32⟩
  | .hbm, ⟨34, _⟩ => ⟨S10000x32, .f32⟩
  | .hbm, ⟨35, _⟩ => ⟨S32x32, .f32⟩
  | .hbm, ⟨36, _⟩ => ⟨S10000x32, .f32⟩
  | .hbm, ⟨37, _⟩ => ⟨S1x32, .f32⟩
  | .hbm, ⟨38, _⟩ => ⟨S10000x32, .f32⟩
  | .hbm, ⟨39, _⟩ => ⟨S10000x32, .f32⟩
  | .hbm, ⟨40, _⟩ => ⟨S_, .f32⟩
  | .hbm, ⟨41, _⟩ => ⟨S10000x32, .f32⟩
  | .hbm, ⟨42, _⟩ => ⟨S10000x32, .f32⟩
  | .hbm, ⟨43, _⟩ => ⟨S10000x32, .f32⟩
  | .hbm, ⟨44, _⟩ => ⟨S10000x32, .f32⟩
  | .hbm, ⟨45, _⟩ => ⟨S10000x32, .f32⟩
  | .hbm, ⟨46, _⟩ => ⟨S32x32, .f32⟩
  | .hbm, ⟨47, _⟩ => ⟨S10000x32, .f32⟩
  | .hbm, ⟨48, _⟩ => ⟨S1x32, .f32⟩
  | .hbm, ⟨49, _⟩ => ⟨S10000x32, .f32⟩
  | .hbm, ⟨50, _⟩ => ⟨S10000x32, .f32⟩
  | .hbm, ⟨51, _⟩ => ⟨S_, .f32⟩
  | .hbm, ⟨52, _⟩ => ⟨S10000x32, .f32⟩
  | .hbm, ⟨53, _⟩ => ⟨S10000x32, .f32⟩
  | .hbm, ⟨54, _⟩ => ⟨S32x32, .f32⟩
  | .hbm, ⟨55, _⟩ => ⟨S10000x32, .f32⟩
  | .hbm, ⟨56, _⟩ => ⟨S1x32, .f32⟩
  | .hbm, ⟨57, _⟩ => ⟨S10000x32, .f32⟩
  | .hbm, ⟨58, _⟩ => ⟨S10000x32, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_call0_cst : Ref sig .tc := ⟨.hbm, 21, rfl⟩
abbrev main_call0_v0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_call1_cst : Ref sig .tc := ⟨.hbm, 51, rfl⟩
abbrev main_call1_v0 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩

abbrev nD : Nat := 1
abbrev τ : Topo := Topo.v7x

variable {F : FTy → Type} [FloatOps F]

class Facts₀ : Prop where
  transposes_S32x128_S128x32_1_0 : S32x128.Transposes [1, 0] S128x32
  bcast_S32_S1x32_1 : S32.BroadcastsInDim S1x32 (![1] : Fin 1 → Fin S1x32.rank)
  bcast_S1x32_S10000x32_0_1 : S1x32.BroadcastsInDim S10000x32 (![0, 1] : Fin 2 → Fin S10000x32.rank)
  bcast_S_S10000x32 : S_.BroadcastsInDim S10000x32 (![] : Fin 0 → Fin S10000x32.rank)
  transposes_S32x32_S32x32_1_0 : S32x32.Transposes [1, 0] S32x32
  dot_S10000x128_S128x32_S10000x32_1_0_0_1_n_n_wf : DotDims.WF S10000x128 S128x32 S10000x32 [1] [0] [0] [1] [] []
  dot_S10000x10000_S10000x32_S10000x32_1_0_0_1_n_n_wf : DotDims.WF S10000x10000 S10000x32 S10000x32 [1] [0] [0] [1] [] []
  dot_S10000x32_S32x32_S10000x32_1_0_0_1_n_n_wf : DotDims.WF S10000x32 S32x32 S10000x32 [1] [0] [0] [1] [] []

variable [Facts₀]

def dot_S10000x128_S128x32_S10000x32_1_0_0_1_n_n : DotDims S10000x128 S128x32 S10000x32 where
  lhsContracting := [1]
  rhsContracting := [0]
  lhsNonContracting := [0]
  rhsNonContracting := [1]
  lhsBatch := []
  rhsBatch := []
  wf := dot_S10000x128_S128x32_S10000x32_1_0_0_1_n_n_wf
def dot_S10000x10000_S10000x32_S10000x32_1_0_0_1_n_n : DotDims S10000x10000 S10000x32 S10000x32 where
  lhsContracting := [1]
  rhsContracting := [0]
  lhsNonContracting := [0]
  rhsNonContracting := [1]
  lhsBatch := []
  rhsBatch := []
  wf := dot_S10000x10000_S10000x32_S10000x32_1_0_0_1_n_n_wf
def dot_S10000x32_S32x32_S10000x32_1_0_0_1_n_n : DotDims S10000x32 S32x32 S10000x32 where
  lhsContracting := [1]
  rhsContracting := [0]
  lhsNonContracting := [0]
  rhsNonContracting := [1]
  lhsBatch := []
  rhsBatch := []
  wf := dot_S10000x32_S32x32_S10000x32_1_0_0_1_n_n_wf

class Facts : Prop extends Facts₀ where

variable [Facts]
-- ==== Proof.KernelRun.lean ====
/-
  The kernel program's run with its four result arrays named.

  The program is three launches in a row after a stretch of host re-layings. Each launch leaves the arrays of its
  windows at what its write-backs fold to and every other buffer as it found it, so the contents at the end are a
  fold through the three launches from the launch memory. Every weakly fair execution terminates, without a fault,
  with every unscoped buffer at that fold; read at the four result buffers and the fifteen arguments this is the
  statement below. The arguments' values walk back through the fold to the launch memory.
-/
import proofs.«179760_g63067299775180_cont_9to1_m_88_2_alg».proof.Proof.Gen.KernelIdeal.Frame

set_option maxRecDepth 16384

noncomputable section

namespace Cert.KernelIdeal.Named

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with each result array at the fold's
    contents after the last launch and the arguments as launched. -/
theorem run : θ_run defs (onTc (τ := τ) (main (F := F))) ⟨m, fun _ => 0, ρ⟩ (fun r => ∀ c : Dev nD,
      r.2.mem ((c.tc : Thread nD τ).loc main_v14_0) = W4 m ρ c (Proc.devRef .tc main_v14_0)
      ∧ r.2.mem ((c.tc : Thread nD τ).loc main_v14_1) = W4 m ρ c (Proc.devRef .tc main_v14_1)
      ∧ r.2.mem ((c.tc : Thread nD τ).loc main_v14_2) = W4 m ρ c (Proc.devRef .tc main_v14_2)
      ∧ r.2.mem ((c.tc : Thread nD τ).loc main_v14_3) = W4 m ρ c (Proc.devRef .tc main_v14_3)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v14_0 (by decide)),
       h c _ (mem_uc main_v14_1 (by decide)),
       h c _ (mem_uc main_v14_2 (by decide)),
       h c _ (mem_uc main_v14_3 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c),
       (h c _ (mem_uc main_arg12 (by decide))).trans (W4_main_arg12 m ρ c),
       (h c _ (mem_uc main_arg13 (by decide))).trans (W4_main_arg13 m ρ c),
       (h c _ (mem_uc main_arg14 (by decide))).trans (W4_main_arg14 m ρ c)⟩)

end Cert.KernelIdeal.Named

end
-- ==== Proof.LibPlainMatmul.lean ====
/-
  A matrix product of an M × K by a K × N matrix into a zero accumulator, read at one entry on the extended
  reals: entry (i, j) is Σ_k lhs (i, k) · rhs (k, j). No rounding and no order of accumulation is left in it.
-/
import Idealize.ShloMosaic.PureOps.Ideal.Laws
import Idealize.ShloMosaic.Lib.ValueIdx

noncomputable section

namespace Cert.PlainMatmul

open Idealize.ShloMosaic Idealize.ShloMosaic.ValueIdx

/-- Entry (i, j) of the product of `lhs` (M × K) and `rhs` (K × N) accumulated into zeros. -/
theorem matmul_zero_apply (M K N : Nat) {φ₁ φ₂ : FTy} (prec : Option ContractPrecision)
    (lhs : FVec Ideal ⟨2, ![M, K]⟩ φ₁) (rhs : FVec Ideal ⟨2, ![K, N]⟩ φ₂) (i : Fin M) (j : Fin N) :
    FloatOps.matmul (DotDims.plain M K N) prec lhs rhs (constant ⟨2, ![M, N]⟩ .f32 0x00000000#32) (ix2 i j)
      = ∑ k : Fin K, lhs (ix2 i k) * rhs (ix2 k j) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => rfl
      | ⟨1, _⟩ => exact ((DotDims.plain M K N).lhsIdx_val_of_single rfl _ _).trans hk)
  have er : (DotDims.plain M K N).rhsIdx (ix2 i j) ((contrEquiv1 (DotDims.plain M K N) K rfl rfl).symm k) = ix2 k j :=
    funext fun a => Fin.ext (by
      match a with
      | ⟨0, _⟩ => exact ((DotDims.plain M K N).rhsIdx_val_of_single rfl _ _).trans hk
      | ⟨1, _⟩ => rfl)
  rw [el, er]

end Cert.PlainMatmul

end
-- ==== Proof.LibHostReads.lean ====
/-
  Three host-side readings at an entry, over any sizes, on the extended reals.

  * A plain matrix product on the host (an M × K by a K × N `dot_general`, no batch axes): entry (i, j) is
    Σ_k lhs (i, k) · rhs (k, j).
  * One matrix picked out of a tensor [G, O, K, N] by slicing the first axis at g, dropping it, slicing the next at o
    and dropping it too: entry (k, n) of the result is the tensor at (g, o, k, n).
  * One row picked out of a table [G, N] at g, flattened, and broadcast down M rows: entry (i, n) of the result is
    the table at (g, n).
-/
import Idealize.ShloMosaic.PureOps.Ideal.Laws
import Idealize.ShloMosaic.Lib.Pipeline.Value
import Idealize.ShloMosaic.Lib.ValueIdx

noncomputable section

open scoped BigOperators

namespace Cert.LibHostReads

open Idealize.ShloMosaic Idealize.ShloMosaic.ValueIdx

/-- Entry (i, j) of the host's plain product of `lhs` (M × K) and `rhs` (K × N). -/
theorem dotGeneral_plain_apply (M K N : Nat) {φ₁ φ₂ : FTy} (prec : Option ContractPrecision)
    (lhs : FVec Ideal ⟨2, ![M, K]⟩ φ₁) (rhs : FVec Ideal ⟨2, ![K, N]⟩ φ₂) (i : Fin M) (j : Fin N) :
    Host.dotGeneral (F := Ideal) (DotDims.plain M K N) prec lhs rhs (ix2 i j) = ∑ k : Fin K, lhs (ix2 i k) * rhs (ix2 k j) := by
  simp only [Host.dotGeneral]
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => rfl
      | ⟨1, _⟩ => exact ((DotDims.plain M K N).lhsIdx_val_of_single rfl _ _).trans hk)
  have er : (DotDims.plain M K N).rhsIdx (ix2 i j) ((contrEquiv1 (DotDims.plain M K N) K rfl rfl).symm k) = ix2 k j :=
    funext fun a => Fin.ext (by
      match a with
      | ⟨0, _⟩ => exact ((DotDims.plain M K N).rhsIdx_val_of_single rfl _ _).trans hk
      | ⟨1, _⟩ => rfl)
  rw [el, er]

/-- One matrix of a [G, O, K, N] tensor, picked by two slice-and-drop steps, read at (k, n). -/
theorem select_matrix_apply {α : Type} {G O K N : Nat} (W : (⟨4, ![G, O, K, N]⟩ : Shape).Idx → α) (g : Fin G) (o : Fin O)
    (h1 : (⟨4, ![G, O, K, N]⟩ : Shape).Slices ![g.val, 0, 0, 0] ⟨4, ![1, O, K, N]⟩)
    (h2 : (⟨4, ![1, O, K, N]⟩ : Shape).ShapeCasts ⟨3, ![O, K, N]⟩)
    (h3 : (⟨3, ![O, K, N]⟩ : Shape).Slices ![o.val, 0, 0] ⟨3, ![1, K, N]⟩)
    (h4 : (⟨3, ![1, K, N]⟩ : Shape).ShapeCasts ⟨2, ![K, N]⟩) (k : Fin K) (n : Fin N) :
    shapeCast ⟨2, ![K, N]⟩ (extractStridedSlice ⟨3, ![1, K, N]⟩ ![o.val, 0, 0]
      (shapeCast ⟨3, ![O, K, N]⟩ (extractStridedSlice ⟨4, ![1, O, K, N]⟩ ![g.val, 0, 0, 0] W h1) h2) h3) h4 (ix2 k n)
      = W (ix4 g o k n) := by
  refine (shapeCast_apply _ h4 (ix2 k n) (ix3 (0 : Fin 1) k n) ?_).trans ?_
  · rewrite [Shape.rowMajor_val_three, Shape.rowMajor_val_two]
    show ((0 : Fin 1).val * K + k.val) * N + n.val = k.val * N + n.val
    simp
  refine (extractStridedSlice_apply ![o.val, 0, 0] _ h3 (ix3 (0 : Fin 1) k n) (ix3 o k n) ?_).trans ?_
  · intro a
    match a with
    | ⟨0, _⟩ => show o.val = o.val + (0 : Fin 1).val; simp
    | ⟨1, _⟩ => show k.val = 0 + k.val; omega
    | ⟨2, _⟩ => show n.val = 0 + n.val; omega
  refine (shapeCast_apply _ h2 (ix3 o k n) (ix4 (0 : Fin 1) o k n) ?_).trans ?_
  · rewrite [Shape.rowMajor_val_four, Shape.rowMajor_val_three]
    show (((0 : Fin 1).val * O + o.val) * K + k.val) * N + n.val = (o.val * K + k.val) * N + n.val
    simp
  refine extractStridedSlice_apply ![g.val, 0, 0, 0] W h1 (ix4 (0 : Fin 1) o k n) (ix4 g o k n) ?_
  intro a
  match a with
  | ⟨0, _⟩ => show g.val = g.val + (0 : Fin 1).val; simp
  | ⟨1, _⟩ => show o.val = 0 + o.val; omega
  | ⟨2, _⟩ => show k.val = 0 + k.val; omega
  | ⟨3, _⟩ => show n.val = 0 + n.val; omega

/-- One row of a [G, N] table picked at g, flattened and broadcast down M rows, read at (i, n). -/
theorem select_row_apply {α : Type} {G N M : Nat} (hN : N ≠ 1) (B : (⟨2, ![G, N]⟩ : Shape).Idx → α) (g : Fin G)
    (h1 : (⟨2, ![G, N]⟩ : Shape).Slices ![g.val, 0] ⟨2, ![1, N]⟩)
    (h2 : (⟨2, ![1, N]⟩ : Shape).ShapeCasts ⟨1, ![N]⟩)
    (h3 : (⟨1, ![N]⟩ : Shape).BroadcastsInDim ⟨2, ![1, N]⟩ ![1])
    (h4 : (⟨2, ![1, N]⟩ : Shape).BroadcastsInDim ⟨2, ![M, N]⟩ ![0, 1]) (i : Fin M) (n : Fin N) :
    broadcastInDim ⟨2, ![M, N]⟩ ![0, 1] h4 (broadcastInDim ⟨2, ![1, N]⟩ ![1] h3
      (shapeCast ⟨1, ![N]⟩ (extractStridedSlice ⟨2, ![1, N]⟩ ![g.val, 0] B h1) h2)) (ix2 i n) = B (ix2 g n) := by
  refine (broadcastInDim_apply _ h4 _ (ix2 i n) (ix2 (0 : Fin 1) n) ?_).trans ?_
  · intro a
    match a with
    | ⟨0, _⟩ => show (0 : Fin 1).val = if (1 : Nat) = 1 then 0 else i.val; rw [if_pos rfl]; rfl
    | ⟨1, _⟩ => show n.val = if N = 1 then 0 else n.val; rw [if_neg hN]
  refine (broadcastInDim_apply _ h3 _ (ix2 (0 : Fin 1) n) (ix1 n) ?_).trans ?_
  · intro a
    match a with
    | ⟨0, _⟩ => show n.val = if N = 1 then 0 else n.val; rw [if_neg hN]
  refine (shapeCast_apply _ h2 (ix1 n) (ix2 (0 : Fin 1) n) ?_).trans ?_
  · rewrite [Shape.rowMajor_val_two, Shape.rowMajor_val_one]
    show (0 : Fin 1).val * N + n.val = n.val
    simp
  refine extractStridedSlice_apply ![g.val, 0] B h1 (ix2 (0 : Fin 1) n) (ix2 g n) ?_
  intro a
  match a with
  | ⟨0, _⟩ => show g.val = g.val + (0 : Fin 1).val; simp
  | ⟨1, _⟩ => show n.val = 0 + n.val; omega

end Cert.LibHostReads

end
-- ==== Proof.LibHostLayout.lean ====
/-
  Two host re-layings read at one entry, over any sizes and any element type.

  * A matrix transposed: the result at (i, j) is the matrix at (j, i).
  * A vector of N entries laid as a row [1, N] and then down M rows, by two `broadcast_in_dim`s: the result at (r, c)
    is entry c.
  * A rank-zero value broadcast to a matrix: every entry is the value.
-/
import Idealize.ShloMosaic.Lib.Pipeline.Value
import Idealize.ShloMosaic.Lib.ValueIdx

noncomputable section

namespace Cert.HostLayout

open Idealize.ShloMosaic Idealize.ShloMosaic.ValueIdx

/-- A transposed matrix at (i, j) is the matrix at (j, i). -/
theorem transpose2_apply {α : Type} {a b : ℕ} (x : (⟨2, ![a, b]⟩ : Shape).Idx → α)
    (h : (⟨2, ![a, b]⟩ : Shape).Transposes [1, 0] ⟨2, ![b, a]⟩) (i : Fin b) (j : Fin a) :
    transpose ⟨2, ![b, a]⟩ [1, 0] x h (ix2 i j) = x (ix2 j i) := by
  refine transpose_apply [1, 0] x h (ix2 i j) (ix2 j i) fun q => ?_
  match q with
  | ⟨0, _⟩ => rfl
  | ⟨1, _⟩ => rfl

/-- A vector laid as a row and then down M rows reads, at (r, c), entry c. -/
theorem biasRow_apply {α : Type} {M N : ℕ} (v : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (r : Fin M) (c : Fin N) :
    broadcastInDim ⟨2, ![M, N]⟩ ![0, 1] h2 (broadcastInDim ⟨2, ![1, N]⟩ ![1] h1 v) (ix2 r c) = v (ix1 c) := by
  refine (broadcastInDim_apply _ h2 _ (ix2 r c) (ix2 (0 : Fin 1) c) fun a => ?_).trans
    (broadcastInDim_apply _ h1 v (ix2 (0 : Fin 1) c) (ix1 c) fun a => ?_)
  · match a with
    | ⟨0, _⟩ => show (0 : Fin 1).val = if (1 : Nat) = 1 then 0 else r.val; rw [if_pos rfl]; rfl
    | ⟨1, _⟩ =>
      show c.val = if N = 1 then 0 else c.val
      split
      · have := c.isLt; omega
      · rfl
  · match a with
    | ⟨0, _⟩ =>
      show c.val = if N = 1 then 0 else c.val
      split
      · have := c.isLt; omega
      · rfl

/-- A rank-zero value broadcast to any shape reads the value everywhere. -/
theorem scalar_apply {α : Type} {t : Shape} (u : (⟨0, ![]⟩ : Shape).Idx → α)
    (h : (⟨0, ![]⟩ : Shape).BroadcastsInDim t ![]) (i : t.Idx) :
    broadcastInDim t ![] h u i = u (fun a => a.elim0) :=
  broadcastInDim_apply ![] h u i (fun a => a.elim0) (fun a => a.elim0)

end Cert.HostLayout

end
-- ==== Proof.LibBlockRows.lean ====
/-
  Picking rows out of a matrix, and the layers of a dense graph network read on the picked rows.

  A map ρ from the row numbers of a small matrix to the row numbers of a tall one lays rows ρ 0, ρ 1, … of the
  tall matrix as a matrix of its own (`rowsOf`). Every layer below acts on each row separately, so computing the
  layer on the picked rows gives the picked rows of the layer computed on the whole matrix:

  * a product with a fixed right factor, Σ_k A (r, k) · G (k, c): the matrix unit's product into a zero
    accumulator on the picked rows against the host's plain product on the whole;
  * a bias, one vector of N numbers added to every row: the vector laid as a row and broadcast down the picked
    rows against two host broadcasts down all rows;
  * the entry-by-entry operations (sum, product, maximum, exponential) and a constant splat.

  Everything is on the extended reals, where a change of float format is the identity, so an operand may first
  have been converted to a narrower format.
-/
import Idealize.ShloMosaic.PureOps.Ideal.Laws
import Idealize.ShloMosaic.Lib.Pipeline.Value
import Idealize.ShloMosaic.Lib.ValueIdx
import Idealize.ShloMosaic.Lib.ValueLayout
import proofs.«179760_g63067299775180_cont_9to1_m_88_2_alg».proof.Proof.LibPlainMatmul
import proofs.«179760_g63067299775180_cont_9to1_m_88_2_alg».proof.Proof.LibHostReads
import proofs.«179760_g63067299775180_cont_9to1_m_88_2_alg».proof.Proof.LibHostLayout

noncomputable section

open scoped BigOperators

namespace Cert.BlockRows

open Idealize.ShloMosaic Idealize.ShloMosaic.ValueIdx

variable {TM M K N : Nat}

/-- Rows ρ 0, ρ 1, … of an M-row matrix, laid as a TM-row matrix. -/
def rowsOf {α : Type} (ρ : Fin TM → Fin M) (X : (⟨2, ![M, K]⟩ : Shape).Idx → α) : (⟨2, ![TM, K]⟩ : Shape).Idx → α :=
  fun j => X (ix2 (ρ (j 0)) (j 1))

/-- Entry (p, k) of the picked rows is entry (ρ p, k) of the matrix. -/
theorem rowsOf_apply {α : Type} (ρ : Fin TM → Fin M) (X : (⟨2, ![M, K]⟩ : Shape).Idx → α) (p : Fin TM) (k : Fin K) :
    rowsOf ρ X (ix2 p k) = X (ix2 (ρ p) k) := rfl

/-- Picking every row in place changes nothing. -/
theorem rowsOf_id {α : Type} (X : (⟨2, ![M, K]⟩ : Shape).Idx → α) : rowsOf (fun p : Fin M => p) X = X := by
  funext j
  exact congrArg X (eq_ix2 j).symm

/-- Row p of block t when M rows are cut into n blocks of TM rows each: row TM · t + p. -/
def blockRow (TM n M : Nat) (h : TM * n ≤ M) (t : Fin n) : Fin TM → Fin M := fun p =>
  ⟨TM * t.val + p.val, by
    have ht := t.isLt
    have hp := p.isLt
    calc TM * t.val + p.val < TM * t.val + TM := by omega
      _ = TM * (t.val + 1) := by rw [Nat.mul_succ]
      _ ≤ TM * n := Nat.mul_le_mul_left _ (by omega)
      _ ≤ M := h⟩

/-- Its row number. -/
theorem blockRow_val (TM n M : Nat) (h : TM * n ≤ M) (t : Fin n) (p : Fin TM) :
    (blockRow TM n M h t p).val = TM * t.val + p.val := rfl

/-- A sum of picked rows is the picked rows of the sum. -/
theorem addf_rows {φ : FTy} (ρ : Fin TM → Fin M) (X Y : FVec Ideal ⟨2, ![M, N]⟩ φ) :
    addf (rowsOf ρ X) (rowsOf ρ Y) = rowsOf ρ (addf X Y) := rfl

/-- A product, entry by entry, of picked rows is the picked rows of the product. -/
theorem mulf_rows {φ : FTy} (ρ : Fin TM → Fin M) (X Y : FVec Ideal ⟨2, ![M, N]⟩ φ) :
    mulf (rowsOf ρ X) (rowsOf ρ Y) = rowsOf ρ (mulf X Y) := rfl

/-- The exponential of picked rows is the picked rows of the host's exponential: one function on the extended reals. -/
theorem exp_rows {φ : FTy} (ρ : Fin TM → Fin M) (X : FVec Ideal ⟨2, ![M, N]⟩ φ) :
    exp (rowsOf ρ X) = rowsOf ρ (Host.exp X) := rfl

/-- The host's plain product of an M × K by a K × N matrix. -/
def propagate (A : FVec Ideal ⟨2, ![M, K]⟩ .f32) (G : FVec Ideal ⟨2, ![K, N]⟩ .f32) : FVec Ideal ⟨2, ![M, N]⟩ .f32 :=
  Host.dotGeneral (F := Ideal) (DotDims.plain M K N) none A G

/-- The host's dense layer: the plain product X · W plus the one row B added to every row. -/
def dense (h2 : (⟨2, ![1, N]⟩ : Shape).BroadcastsInDim ⟨2, ![M, N]⟩ ![0, 1])
    (X : FVec Ideal ⟨2, ![M, K]⟩ .f32) (W : FVec Ideal ⟨2, ![K, N]⟩ .f32) (B : FVec Ideal ⟨2, ![1, N]⟩ .f32) :
    FVec Ideal ⟨2, ![M, N]⟩ .f32 :=
  addf (Host.dotGeneral (F := Ideal) (DotDims.plain M K N) none X W) (broadcastInDim ⟨2, ![M, N]⟩ ![0, 1] h2 B)

/-- The host's maximum with zero, the zero a rank-zero constant broadcast to the matrix. -/
def relu (h0 : (⟨0, ![]⟩ : Shape).BroadcastsInDim ⟨2, ![M, N]⟩ ![]) (Y : FVec Ideal ⟨2, ![M, N]⟩ .f32) :
    FVec Ideal ⟨2, ![M, N]⟩ .f32 :=
  maximumf Y (broadcastInDim ⟨2, ![M, N]⟩ ![] h0 (constant (F := Ideal) ⟨0, ![]⟩ .f32 0x00000000#32))

/-- The host's product with a constant, the constant of word `w` broadcast from rank zero. -/
def scaled (w : BitVec 32) (h0 : (⟨0, ![]⟩ : Shape).BroadcastsInDim ⟨2, ![M, N]⟩ ![]) (Y : FVec Ideal ⟨2, ![M, N]⟩ .f32) :
    FVec Ideal ⟨2, ![M, N]⟩ .f32 :=
  mulf (broadcastInDim ⟨2, ![M, N]⟩ ![] h0 (constant (F := Ideal) ⟨0, ![]⟩ .f32 w)) Y

/-- The product with a fixed right factor, row by row: when row p of `a` is row ρ p of `A` and `g` is `G`, the
    matrix unit's product of `a` and `g` into zeros is the picked rows of the host's product of `A` and `G`. -/
theorem matmul_rows (ρ : Fin TM → Fin M) {φ₁ φ₂ : FTy} (prec prec' : Option ContractPrecision)
    (a : FVec Ideal ⟨2, ![TM, K]⟩ φ₁) (g : FVec Ideal ⟨2, ![K, N]⟩ φ₂)
    (A : FVec Ideal ⟨2, ![M, K]⟩ .f32) (G : FVec Ideal ⟨2, ![K, N]⟩ .f32)
    (ha : ∀ (p : Fin TM) (k : Fin K), (a (ix2 p k) : EReal) = A (ix2 (ρ p) k))
    (hg : ∀ (k : Fin K) (n : Fin N), (g (ix2 k n) : EReal) = G (ix2 k n)) :
    matmul (DotDims.plain TM K N) prec a g (constant ⟨2, ![TM, N]⟩ .f32 0x00000000#32)
      = rowsOf ρ (Host.dotGeneral (F := Ideal) (DotDims.plain M K N) prec' A G) := by
  funext j
  obtain ⟨p, c, rfl⟩ : ∃ (p : Fin TM) (c : Fin N), j = ix2 p c := ⟨j 0, j 1, eq_ix2 j⟩
  rw [rowsOf_apply, Cert.LibHostReads.dotGeneral_plain_apply]
  refine (Cert.PlainMatmul.matmul_zero_apply TM K N prec a g p c).trans ?_
  exact Finset.sum_congr rfl fun k _ => congrArg₂ (· * ·) (ha p k) (hg k c)

/-- The propagation step on picked rows: the matrix unit's product, into zeros, of the picked rows of A and the
    whole of G — both first converted to a narrower float format, which changes nothing on the extended reals — is
    the picked rows of the host's product A · G. -/
theorem propagate_rows (ρ : Fin TM → Fin M) {ψ : FTy} (hψ : ψ.bits < FTy.f32.bits)
    (hs : (⟨2, ![K, N]⟩ : Shape).ShapeCasts ⟨2, ![K, N]⟩)
    (A : FVec Ideal ⟨2, ![M, K]⟩ .f32) (G : FVec Ideal ⟨2, ![K, N]⟩ .f32) :
    matmul (DotDims.plain TM K N) none (truncf ψ (rowsOf ρ A) hψ) (truncf ψ (shapeCast ⟨2, ![K, N]⟩ G hs) hψ)
        (constant ⟨2, ![TM, N]⟩ .f32 0x00000000#32)
      = rowsOf ρ (propagate A G) := by
  rw [shapeCast_self]
  exact matmul_rows ρ none none _ _ A G (fun _ _ => rfl) (fun _ _ => rfl)

/-- A dense layer on picked rows: the matrix unit's product of the picked rows of X and the whole of W into zeros,
    plus the row B broadcast down the picked rows, is the picked rows of the host's layer on X. -/
theorem dense_rows (ρ : Fin TM → Fin M)
    (hsw : (⟨2, ![K, N]⟩ : Shape).ShapeCasts ⟨2, ![K, N]⟩) (hs : (⟨2, ![1, N]⟩ : Shape).ShapeCasts ⟨2, ![1, N]⟩)
    (hb : (⟨2, ![1, N]⟩ : Shape).Broadcasts ⟨2, ![TM, N]⟩)
    (h2 : (⟨2, ![1, N]⟩ : Shape).BroadcastsInDim ⟨2, ![M, N]⟩ ![0, 1])
    (X : FVec Ideal ⟨2, ![M, K]⟩ .f32) (W : FVec Ideal ⟨2, ![K, N]⟩ .f32) (B : FVec Ideal ⟨2, ![1, N]⟩ .f32) :
    addf (matmul (DotDims.plain TM K N) none (rowsOf ρ X) (shapeCast ⟨2, ![K, N]⟩ W hsw)
          (constant ⟨2, ![TM, N]⟩ .f32 0x00000000#32))
        (broadcastTo ⟨2, ![TM, N]⟩ (shapeCast ⟨2, ![1, N]⟩ B hs) hb)
      = rowsOf ρ (dense h2 X W B) := by
  rw [shapeCast_self, shapeCast_self, matmul_rows ρ none none (rowsOf ρ X) W X W (fun _ _ => rfl) (fun _ _ => rfl)]
  unfold dense
  rw [← addf_rows]
  refine congrArg (addf (rowsOf ρ (Host.dotGeneral (F := Ideal) (DotDims.plain M K N) none X W))) ?_
  funext j
  obtain ⟨p, c, rfl⟩ : ∃ (p : Fin TM) (c : Fin N), j = ix2 p c := ⟨j 0, j 1, eq_ix2 j⟩
  rw [broadcastTo_1b_ab_apply, rowsOf_apply]
  refine (broadcastInDim_apply _ h2 B (ix2 (ρ p) c) (ix2 (0 : Fin 1) c) fun a => ?_).symm
  match a with
  | ⟨0, _⟩ => show (0 : Fin 1).val = if (1 : Nat) = 1 then 0 else (ρ p).val; rw [if_pos rfl]; rfl
  | ⟨1, _⟩ =>
    show c.val = if N = 1 then 0 else c.val
    split
    · have := c.isLt; omega
    · rfl

/-- A vector of N numbers reshaped to one row is the same vector broadcast into a row along its one axis. -/
theorem reshape_row {α : Type} (v : (⟨1, ![N]⟩ : Shape).Idx → α) (hs : (⟨1, ![N]⟩ : Shape).ShapeCasts ⟨2, ![1, N]⟩)
    (h1 : (⟨1, ![N]⟩ : Shape).BroadcastsInDim ⟨2, ![1, N]⟩ ![1]) :
    shapeCast ⟨2, ![1, N]⟩ v hs = broadcastInDim ⟨2, ![1, N]⟩ ![1] h1 v := by
  funext i
  obtain ⟨z, c, rfl⟩ : ∃ (z : Fin 1) (c : Fin N), i = ix2 z c := ⟨i 0, i 1, eq_ix2 i⟩
  have hz : z.val = 0 := by have := z.isLt; omega
  refine (shapeCast_apply v hs (ix2 z c) (ix1 c) ?_).trans (broadcastInDim_apply ![1] h1 v (ix2 z c) (ix1 c) fun a => ?_).symm
  · rewrite [Shape.rowMajor_val_two, Shape.rowMajor_val_one]
    show c.val = z.val * N + c.val
    rw [hz]; simp
  · match a with
    | ⟨0, _⟩ =>
      show c.val = if N = 1 then 0 else c.val
      split
      · have := c.isLt; omega
      · rfl

/-- A constant splat over TM rows is the picked rows of the same constant broadcast from rank zero over M rows. -/
theorem splat_rows (ρ : Fin TM → Fin M) (w : BitVec 32) (h : (⟨0, ![]⟩ : Shape).BroadcastsInDim ⟨2, ![M, N]⟩ ![]) :
    (broadcast ⟨2, ![TM, N]⟩ (Scalar.ofBits (F := Ideal) .f32 w) : FVec Ideal ⟨2, ![TM, N]⟩ .f32)
      = rowsOf ρ (broadcastInDim ⟨2, ![M, N]⟩ ![] h (constant (F := Ideal) ⟨0, ![]⟩ .f32 w)) := by
  funext j
  exact (Cert.HostLayout.scalar_apply (constant (F := Ideal) ⟨0, ![]⟩ .f32 w) h (ix2 (ρ (j 0)) (j 1))).symm

/-- The maximum with a splat zero of picked rows is the picked rows of the host's maximum with zero. -/
theorem relu_rows (ρ : Fin TM → Fin M) (h0 : (⟨0, ![]⟩ : Shape).BroadcastsInDim ⟨2, ![M, N]⟩ ![])
    (Y : FVec Ideal ⟨2, ![M, N]⟩ .f32) :
    maximumf (rowsOf ρ Y) (broadcast ⟨2, ![TM, N]⟩ (Scalar.ofBits (F := Ideal) .f32 0x00000000#32)) = rowsOf ρ (relu h0 Y) := by
  rw [splat_rows ρ 0x00000000#32 h0]; rfl

/-- The product of a splat constant with picked rows is the picked rows of the host's product with the constant. -/
theorem scaled_rows (ρ : Fin TM → Fin M) (w : BitVec 32) (h0 : (⟨0, ![]⟩ : Shape).BroadcastsInDim ⟨2, ![M, N]⟩ ![])
    (Y : FVec Ideal ⟨2, ![M, N]⟩ .f32) :
    mulf (broadcast ⟨2, ![TM, N]⟩ (Scalar.ofBits (F := Ideal) .f32 w)) (rowsOf ρ Y) = rowsOf ρ (scaled w h0 Y) := by
  rw [splat_rows ρ w h0]; rfl

end Cert.BlockRows

end
-- ==== Proof.Launch0.lean ====
/-
  The first launch: one point, taking the whole of the features x, the transposed weights W and the bias row B and
  writing the whole of the first layer before propagation, x · W + B. The matrix unit's product into zeros and the
  broadcast row are the host's dense layer, and the one block is the whole array.
-/
import proofs.«179760_g63067299775180_cont_9to1_m_88_2_alg».proof.Proof.Gen.KernelIdeal.Frame
import proofs.«179760_g63067299775180_cont_9to1_m_88_2_alg».proof.Proof.LibBlockRows
import Idealize.ShloMosaic.Lib.Pipeline.Value
import Idealize.ShloMosaic.Lib.ValueIdx

set_option maxRecDepth 16384

noncomputable section

namespace Cert.KernelIdeal.Launch0

open Idealize.ShloMosaic Idealize.ShloMosaic.ValueIdx Idealize.ShloMosaic.TcCoe Idealize.SL.Sem
open Idealize.ShloMosaic.Pipeline (Dat Cfg Window)
open Cert.KernelIdeal Cert.KernelIdeal.Gen Cert.BlockRows

-- the buffer contents the launch finds
variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the grid: every window is its whole array, at block index zero on both axes. -/
theorem idx : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

/-- Window 0's block at point t: its whole array. -/
theorem iblk_0 (c : Dev nD) (t : Fin cfg0.N) :
    iblk0 V c 0 t = (V c main_arg0 : S10000x128.Idx → EReal) := by
  obtain ⟨er, ec, -⟩ := idx t
  funext j
  show V c main_arg0 (((cfg0.win 0).blk t).view.emb j) = V c main_arg0 j
  refine congrArg (V c main_arg0) ?_
  funext a; apply Fin.ext
  match a with
  | ⟨0, _⟩ => show win0_0.index t (0 : Fin 2) * 10000 + 1 * (j 0).val = (j 0).val; omega
  | ⟨1, _⟩ => show win0_0.index t (1 : Fin 2) * 128 + 1 * (j 1).val = (j 1).val; omega

/-- Window 1's block at point t: its whole array. -/
theorem iblk_1 (c : Dev nD) (t : Fin cfg0.N) :
    iblk0 V c 1 t = (V c main_v0 : S128x32.Idx → EReal) := by
  obtain ⟨-, -, er, ec, -⟩ := idx t
  funext j
  show V c main_v0 (((cfg0.win 1).blk t).view.emb j) = V c main_v0 j
  refine congrArg (V c main_v0) ?_
  funext a; apply Fin.ext
  match a with
  | ⟨0, _⟩ => show win0_1.index t (0 : Fin 2) * 128 + 1 * (j 0).val = (j 0).val; omega
  | ⟨1, _⟩ => show win0_1.index t (1 : Fin 2) * 32 + 1 * (j 1).val = (j 1).val; omega

/-- Window 2's block at point t: its whole array. -/
theorem iblk_2 (c : Dev nD) (t : Fin cfg0.N) :
    iblk0 V c 2 t = (V c main_v6 : S1x32.Idx → EReal) := by
  obtain ⟨-, -, -, -, er, ec, -⟩ := idx t
  funext j
  show V c main_v6 (((cfg0.win 2).blk t).view.emb j) = V c main_v6 j
  refine congrArg (V c main_v6) ?_
  funext a; apply Fin.ext
  match a with
  | ⟨0, _⟩ => show win0_2.index t (0 : Fin 2) * 1 + 1 * (j 0).val = (j 0).val; omega
  | ⟨1, _⟩ => show win0_2.index t (1 : Fin 2) * 32 + 1 * (j 1).val = (j 1).val; omega

-- the side condition of the host's broadcast the layer is spelt with
variable (hd : (⟨2, ![1, 32]⟩ : Shape).BroadcastsInDim ⟨2, ![10000, 32]⟩ ![0, 1])

/-- The body's stored value is the host's dense layer. -/
theorem pay_eq (X : FVec Ideal ⟨2, ![10000, 128]⟩ .f32) (W : FVec Ideal ⟨2, ![128, 32]⟩ .f32) (B : FVec Ideal ⟨2, ![1, 32]⟩ .f32) :
    k0_pay1 (F := Ideal) X W B = dense hd X W B := by
  have e := dense_rows (TM := 10000) (M := 10000) (fun p : Fin 10000 => p) shapeCasts_S128x32_S128x32 shapeCasts_S1x32_S1x32
    broadcasts_S1x32_S10000x32 hd X W B
  rw [rowsOf_id, rowsOf_id] at e
  rw [← e]; rfl

/-- What the launch leaves in its output array, as a function of the contents it finds: the first layer before
    propagation, from the features, the transposed weights and the bias row. -/
def layer (c : Dev nD) : FVec Ideal ⟨2, ![10000, 32]⟩ .f32 :=
  dense hd (V c main_arg0 : S10000x128.Idx → EReal) (V c main_v0 : S128x32.Idx → EReal) (V c main_v6 : S1x32.Idx → EReal)

/-- What the one point writes back is the whole of `layer`. -/
theorem flushed_3 (c : Dev nD) (t : Fin cfg0.N) :
    (dat0 V c).flushed 3 t = ((cfg0.win 3).blk t).view.read (Elt Ideal) (layer V hd c) := by
  show (cfg0.win 3).cut (grid0.coords t) ((dat0 V c).after 3 t) = _
  rw [after0_3]
  unfold out0_3
  rw [View.canon_unit_zero hz]
  simp only [View.ld_unit_zero (S := S10000x128) hz, View.ld_unit_zero (S := S128x32) hz, View.ld_unit_zero (S := S1x32) hz]
  rw [iblk_0, iblk_1, iblk_2, pay_eq hd]
  obtain ⟨-, -, -, -, -, -, er, ec⟩ := idx t
  funext j
  show layer V hd c j = layer V hd c (((cfg0.win 3).blk t).view.emb j)
  refine congrArg (layer V hd c) ?_
  funext a; apply Fin.ext
  match a with
  | ⟨0, _⟩ => show (j 0).val = win0_3.index t (0 : Fin 2) * 10000 + 1 * (j 0).val; omega
  | ⟨1, _⟩ => show (j 1).val = win0_3.index t (1 : Fin 2) * 32 + 1 * (j 1).val; omega

/-- An index of the output array is in the one block iff each coordinate is in the block's range on its axis. -/
theorem mem_blk_3 (t : Fin cfg0.N) (i : S10000x32.Idx) :
    i ∈ ((cfg0.win 3).blk t).view.set ↔ ∀ a : Fin 2, win0_3.index t a * S10000x32.size a ≤ (i a).val
      ∧ (i a).val < win0_3.index t a * S10000x32.size a + S10000x32.size a := by
  show i ∈ ((View.whole main_v12).slice (win0_3.rect t)).set ↔ _
  rw [View.set_slice_whole, Rect.mem_set_unit]
  exact Iff.rfl

/-- The one block is the whole array. -/
theorem cover_3 (i : S10000x32.Idx) :
    ∃ t : Fin cfg0.N, (cfg0.win 3).flush t = true ∧ i ∈ ((cfg0.win 3).blk t).view.set := by
  have hi0 : (i 0).val < 10000 := (i 0).isLt
  have hi1 : (i 1).val < 32 := (i 1).isLt
  refine ⟨⟨0, by decide⟩, flush0_3 _, ?_⟩
  rw [mem_blk_3]
  obtain ⟨-, -, -, -, -, -, er, ec⟩ := idx ⟨0, by decide⟩
  intro a
  match a with
  | ⟨0, _⟩ =>
    show win0_3.index ⟨0, by decide⟩ (0 : Fin 2) * 10000 ≤ (i 0).val ∧ (i 0).val < win0_3.index ⟨0, by decide⟩ (0 : Fin 2) * 10000 + 10000
    omega
  | ⟨1, _⟩ =>
    show win0_3.index ⟨0, by decide⟩ (1 : Fin 2) * 32 ≤ (i 1).val ∧ (i 1).val < win0_3.index ⟨0, by decide⟩ (1 : Fin 2) * 32 + 32
    omega

/-- The output array after the launch is `layer` of the contents the launch found. -/
theorem final_3 (c : Dev nD) : (dat0 V c).arrAt 3 cfg0.N = layer V hd c :=
  (dat0 V c).arrAt_eq_of_cover 3 (layer V hd c) (fun t _ => flushed_3 V hd c t) cover_3

end Cert.KernelIdeal.Launch0

end
-- ==== Proof.Launch1.lean ====
/-
  The second launch: 25 points, each taking 400 rows of the adjacency matrix A and the whole of the first layer g1,
  the transposed weights W and the bias row B, and writing 400 rows of

      max (A · g1) 0 · W + B

  On the point's rows the matrix unit's products and the vector unit's maximum and sum are the host's plain product,
  maximum and dense layer on the whole matrix, read at those rows; the 25 blocks of 400 rows tile the 10000 rows,
  so after the launch the output array is that whole-matrix function of what the launch found.
-/
import proofs.«179760_g63067299775180_cont_9to1_m_88_2_alg».proof.Proof.Gen.KernelIdeal.Frame
import proofs.«179760_g63067299775180_cont_9to1_m_88_2_alg».proof.Proof.LibBlockRows
import Idealize.ShloMosaic.Lib.Pipeline.Value
import Idealize.ShloMosaic.Lib.ValueIdx

set_option maxRecDepth 16384

noncomputable section

namespace Cert.KernelIdeal.Launch1

open Idealize.ShloMosaic Idealize.ShloMosaic.ValueIdx Idealize.ShloMosaic.TcCoe Idealize.SL.Sem
open Idealize.ShloMosaic.Pipeline (Dat Cfg Window)
open Cert.KernelIdeal Cert.KernelIdeal.Gen Cert.BlockRows

-- the buffer contents the launch finds
variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the grid: a row-blocked window's block index is the point's number on the
    rows and zero on the columns; a whole-array window's is zero on both. -/
theorem idx : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Window 0's block at point t: the point's rows of its array. -/
theorem iblk_0 (c : Dev nD) (t : Fin cfg1.N) :
    iblk1 V c 0 t = rowsOf (blockRow 400 25 10000 (by decide) t) (V c main_arg1 : S10000x10000.Idx → EReal) := by
  obtain ⟨er, ec, -⟩ := idx t
  funext j
  show V c main_arg1 (((cfg1.win 0).blk t).view.emb j) = V c main_arg1 (ix2 (blockRow 400 25 10000 (by decide) t (j 0)) (j 1))
  refine congrArg (V c main_arg1) ?_
  funext a; apply Fin.ext
  match a with
  | ⟨0, _⟩ => show win1_0.index t (0 : Fin 2) * 400 + 1 * (j 0).val = 400 * t.val + (j 0).val; omega
  | ⟨1, _⟩ => show win1_0.index t (1 : Fin 2) * 10000 + 1 * (j 1).val = (j 1).val; omega

/-- Window 1's block at point t: its whole array. -/
theorem iblk_1 (c : Dev nD) (t : Fin cfg1.N) :
    iblk1 V c 1 t = (V c main_v12 : S10000x32.Idx → EReal) := by
  obtain ⟨-, -, er, ec, -⟩ := idx t
  funext j
  show V c main_v12 (((cfg1.win 1).blk t).view.emb j) = V c main_v12 j
  refine congrArg (V c main_v12) ?_
  funext a; apply Fin.ext
  match a with
  | ⟨0, _⟩ => show win1_1.index t (0 : Fin 2) * 10000 + 1 * (j 0).val = (j 0).val; omega
  | ⟨1, _⟩ => show win1_1.index t (1 : Fin 2) * 32 + 1 * (j 1).val = (j 1).val; omega

/-- Window 2's block at point t: its whole array. -/
theorem iblk_2 (c : Dev nD) (t : Fin cfg1.N) :
    iblk1 V c 2 t = (V c main_v1 : S32x32.Idx → EReal) := by
  obtain ⟨-, -, -, -, er, ec, -⟩ := idx t
  funext j
  show V c main_v1 (((cfg1.win 2).blk t).view.emb j) = V c main_v1 j
  refine congrArg (V c main_v1) ?_
  funext a; apply Fin.ext
  match a with
  | ⟨0, _⟩ => show win1_2.index t (0 : Fin 2) * 32 + 1 * (j 0).val = (j 0).val; omega
  | ⟨1, _⟩ => show win1_2.index t (1 : Fin 2) * 32 + 1 * (j 1).val = (j 1).val; omega

/-- Window 3's block at point t: its whole array. -/
theorem iblk_3 (c : Dev nD) (t : Fin cfg1.N) :
    iblk1 V c 3 t = (V c main_v7 : S1x32.Idx → EReal) := by
  obtain ⟨-, -, -, -, -, -, er, ec, -⟩ := idx t
  funext j
  show V c main_v7 (((cfg1.win 3).blk t).view.emb j) = V c main_v7 j
  refine congrArg (V c main_v7) ?_
  funext a; apply Fin.ext
  match a with
  | ⟨0, _⟩ => show win1_3.index t (0 : Fin 2) * 1 + 1 * (j 0).val = (j 0).val; omega
  | ⟨1, _⟩ => show win1_3.index t (1 : Fin 2) * 32 + 1 * (j 1).val = (j 1).val; omega

-- the side conditions of the host's two broadcasts the layers are spelt with
variable (hd : (⟨2, ![1, 32]⟩ : Shape).BroadcastsInDim ⟨2, ![10000, 32]⟩ ![0, 1])
  (h0 : (⟨0, ![]⟩ : Shape).BroadcastsInDim ⟨2, ![10000, 32]⟩ ![])

/-- The body's stored value on picked rows of A: the picked rows of the layer on the whole of A. -/
theorem pay_rows (ρ : Fin 400 → Fin 10000) (A : FVec Ideal ⟨2, ![10000, 10000]⟩ .f32) (G : FVec Ideal ⟨2, ![10000, 32]⟩ .f32)
    (W : FVec Ideal ⟨2, ![32, 32]⟩ .f32) (B : FVec Ideal ⟨2, ![1, 32]⟩ .f32) :
    k1_pay1 (F := Ideal) (rowsOf ρ A) G W B = rowsOf ρ (dense hd (relu h0 (propagate A G)) W B) := by
  have e1 := propagate_rows (TM := 400) (M := 10000) (K := 10000) (N := 32) ρ bitsLt_bf16_f32 shapeCasts_S10000x32_S10000x32 A G
  have e2 := relu_rows (TM := 400) ρ h0 (propagate A G)
  have e3 := dense_rows (TM := 400) ρ shapeCasts_S32x32_S32x32 shapeCasts_S1x32_S1x32 broadcasts_S1x32_S400x32 hd
    (relu h0 (propagate A G)) W B
  rw [← e3, ← e2, ← e1]
  rfl

/-- What the launch leaves in its output array, as a function of the contents it finds: the second layer before
    propagation, from the adjacency matrix, the first layer, the transposed weights and the bias row. -/
def layer (c : Dev nD) : FVec Ideal ⟨2, ![10000, 32]⟩ .f32 :=
  dense hd (relu h0 (propagate (V c main_arg1 : S10000x10000.Idx → EReal) (V c main_v12 : S10000x32.Idx → EReal)))
    (V c main_v1 : S32x32.Idx → EReal) (V c main_v7 : S1x32.Idx → EReal)

/-- What point t writes back of window 4 is block t of `layer`. -/
theorem flushed_4 (c : Dev nD) (t : Fin cfg1.N) :
    (dat1 V c).flushed 4 t = ((cfg1.win 4).blk t).view.read (Elt Ideal) (layer V hd h0 c) := by
  show (cfg1.win 4).cut (grid1.coords t) ((dat1 V c).after 4 t) = _
  rw [after1_4]
  unfold out1_4
  rw [View.canon_unit_zero hz]
  simp only [View.ld_unit_zero (S := S400x10000) hz, View.ld_unit_zero (S := S10000x32) hz, View.ld_unit_zero (S := S32x32) hz, View.ld_unit_zero (S := S1x32) hz]
  rw [iblk_0, iblk_1, iblk_2, iblk_3, pay_rows hd h0]
  obtain ⟨-, -, -, -, -, -, -, -, er, ec⟩ := idx t
  funext j
  show layer V hd h0 c (ix2 (blockRow 400 25 10000 (by decide) t (j 0)) (j 1)) = layer V hd h0 c (((cfg1.win 4).blk t).view.emb j)
  refine congrArg (layer V hd h0 c) ?_
  funext a; apply Fin.ext
  match a with
  | ⟨0, _⟩ => show 400 * t.val + (j 0).val = win1_4.index t (0 : Fin 2) * 400 + 1 * (j 0).val; omega
  | ⟨1, _⟩ => show (j 1).val = win1_4.index t (1 : Fin 2) * 32 + 1 * (j 1).val; omega

/-- An index of window 4's array is in point t's block iff each coordinate is in the block's range on its axis. -/
theorem mem_blk_4 (t : Fin cfg1.N) (i : S10000x32.Idx) :
    i ∈ ((cfg1.win 4).blk t).view.set ↔ ∀ a : Fin 2, win1_4.index t a * S400x32.size a ≤ (i a).val
      ∧ (i a).val < win1_4.index t a * S400x32.size a + S400x32.size a := by
  show i ∈ ((View.whole main_v13).slice (win1_4.rect t)).set ↔ _
  rw [View.set_slice_whole, Rect.mem_set_unit]
  exact Iff.rfl

/-- Row i₀ of window 4's array lies in the block of point i₀ / 400: the blocks tile the array. -/
theorem cover_4 (i : S10000x32.Idx) :
    ∃ t : Fin cfg1.N, (cfg1.win 4).flush t = true ∧ i ∈ ((cfg1.win 4).blk t).view.set := by
  have hi0 : (i 0).val < 10000 := (i 0).isLt
  have hi1 : (i 1).val < 32 := (i 1).isLt
  have hq : (i 0).val / 400 < 25 := by omega
  refine ⟨⟨(i 0).val / 400, hq⟩, flush1_4 _, ?_⟩
  rw [mem_blk_4]
  obtain ⟨-, -, -, -, -, -, -, -, er, ec⟩ := idx ⟨(i 0).val / 400, hq⟩
  have er' : win1_4.index ⟨(i 0).val / 400, hq⟩ (0 : Fin 2) = (i 0).val / 400 := er
  intro a
  match a with
  | ⟨0, _⟩ =>
    show win1_4.index ⟨(i 0).val / 400, hq⟩ (0 : Fin 2) * 400 ≤ (i 0).val
      ∧ (i 0).val < win1_4.index ⟨(i 0).val / 400, hq⟩ (0 : Fin 2) * 400 + 400
    omega
  | ⟨1, _⟩ =>
    show win1_4.index ⟨(i 0).val / 400, hq⟩ (1 : Fin 2) * 32 ≤ (i 1).val
      ∧ (i 1).val < win1_4.index ⟨(i 0).val / 400, hq⟩ (1 : Fin 2) * 32 + 32
    omega

/-- Window 4's array after the launch is `layer` of the contents the launch found. -/
theorem final_4 (c : Dev nD) : (dat1 V c).arrAt 4 cfg1.N = layer V hd h0 c :=
  (dat1 V c).arrAt_eq_of_cover 4 (layer V hd h0 c) (fun t _ => flushed_4 V hd h0 c t) cover_4

end Cert.KernelIdeal.Launch1

end
-- ==== Proof.Launch2.lean ====
/-
  The third launch: 25 points, each taking 400 rows of the adjacency matrix A and of the noise E, the whole of the
  second layer g2 and four transposed weight tables with their bias rows, and writing 400 rows of each of

      mu = (A · g2) · Wm + Bm          lv = (A · g2) · Wl + Bl
      xs = mu + exp (½ · lv) · E       z  = max (xs · Wp + Bp) 0 · Wq + Bq

  On the point's rows every step is the host's step on the whole matrices read at those rows, and the 25 blocks of
  400 rows tile the 10000 rows, so after the launch each output array is its whole-matrix function of what the
  launch found.
-/
import proofs.«179760_g63067299775180_cont_9to1_m_88_2_alg».proof.Proof.Gen.KernelIdeal.Frame
import proofs.«179760_g63067299775180_cont_9to1_m_88_2_alg».proof.Proof.LibBlockRows
import Idealize.ShloMosaic.Lib.Pipeline.Value
import Idealize.ShloMosaic.Lib.ValueIdx

set_option maxRecDepth 16384

noncomputable section

namespace Cert.KernelIdeal.Launch2

open Idealize.ShloMosaic Idealize.ShloMosaic.ValueIdx Idealize.ShloMosaic.TcCoe Idealize.SL.Sem
open Idealize.ShloMosaic.Pipeline (Dat Cfg Window)
open Cert.KernelIdeal Cert.KernelIdeal.Gen Cert.BlockRows

-- the buffer contents the launch finds
variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the grid: a row-blocked window's block index is the point's number on the
    rows and zero on the columns; a whole-array window's is zero on both. -/
theorem idx : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = 0 ∧ win2_8.index t (1 : Fin 2) = 0
    ∧ win2_9.index t (0 : Fin 2) = 0 ∧ win2_9.index t (1 : Fin 2) = 0
    ∧ win2_10.index t (0 : Fin 2) = t.val ∧ win2_10.index t (1 : Fin 2) = 0
    ∧ win2_11.index t (0 : Fin 2) = t.val ∧ win2_11.index t (1 : Fin 2) = 0
    ∧ win2_12.index t (0 : Fin 2) = t.val ∧ win2_12.index t (1 : Fin 2) = 0
    ∧ win2_13.index t (0 : Fin 2) = t.val ∧ win2_13.index t (1 : Fin 2) = 0
    ∧ win2_14.index t (0 : Fin 2) = t.val ∧ win2_14.index t (1 : Fin 2) = 0 :=
  (by decide +kernel : ∀ t : Fin grid2.N, _)

/-- Window 0's block at point t: the point's rows of its array. -/
theorem iblk_0 (c : Dev nD) (t : Fin cfg2.N) :
    iblk2 V c 0 t = rowsOf (blockRow 400 25 10000 (by decide) t) (V c main_arg1 : S10000x10000.Idx → EReal) := by
  obtain ⟨er, ec, -⟩ := idx t
  funext j
  show V c main_arg1 (((cfg2.win 0).blk t).view.emb j) = V c main_arg1 (ix2 (blockRow 400 25 10000 (by decide) t (j 0)) (j 1))
  refine congrArg (V c main_arg1) ?_
  funext a; apply Fin.ext
  match a with
  | ⟨0, _⟩ => show win2_0.index t (0 : Fin 2) * 400 + 1 * (j 0).val = 400 * t.val + (j 0).val; omega
  | ⟨1, _⟩ => show win2_0.index t (1 : Fin 2) * 10000 + 1 * (j 1).val = (j 1).val; omega

/-- Window 1's block at point t: its whole array. -/
theorem iblk_1 (c : Dev nD) (t : Fin cfg2.N) :
    iblk2 V c 1 t = (V c main_v13 : S10000x32.Idx → EReal) := by
  obtain ⟨-, -, er, ec, -⟩ := idx t
  funext j
  show V c main_v13 (((cfg2.win 1).blk t).view.emb j) = V c main_v13 j
  refine congrArg (V c main_v13) ?_
  funext a; apply Fin.ext
  match a with
  | ⟨0, _⟩ => show win2_1.index t (0 : Fin 2) * 10000 + 1 * (j 0).val = (j 0).val; omega
  | ⟨1, _⟩ => show win2_1.index t (1 : Fin 2) * 32 + 1 * (j 1).val = (j 1).val; omega

/-- Window 2's block at point t: its whole array. -/
theorem iblk_2 (c : Dev nD) (t : Fin cfg2.N) :
    iblk2 V c 2 t = (V c main_v2 : S32x32.Idx → EReal) := by
  obtain ⟨-, -, -, -, er, ec, -⟩ := idx t
  funext j
  show V c main_v2 (((cfg2.win 2).blk t).view.emb j) = V c main_v2 j
  refine congrArg (V c main_v2) ?_
  funext a; apply Fin.ext
  match a with
  | ⟨0, _⟩ => show win2_2.index t (0 : Fin 2) * 32 + 1 * (j 0).val = (j 0).val; omega
  | ⟨1, _⟩ => show win2_2.index t (1 : Fin 2) * 32 + 1 * (j 1).val = (j 1).val; omega

/-- Window 3's block at point t: its whole array. -/
theorem iblk_3 (c : Dev nD) (t : Fin cfg2.N) :
    iblk2 V c 3 t = (V c main_v8 : S1x32.Idx → EReal) := by
  obtain ⟨-, -, -, -, -, -, er, ec, -⟩ := idx t
  funext j
  show V c main_v8 (((cfg2.win 3).blk t).view.emb j) = V c main_v8 j
  refine congrArg (V c main_v8) ?_
  funext a; apply Fin.ext
  match a with
  | ⟨0, _⟩ => show win2_3.index t (0 : Fin 2) * 1 + 1 * (j 0).val = (j 0).val; omega
  | ⟨1, _⟩ => show win2_3.index t (1 : Fin 2) * 32 + 1 * (j 1).val = (j 1).val; omega

/-- Window 4's block at point t: its whole array. -/
theorem iblk_4 (c : Dev nD) (t : Fin cfg2.N) :
    iblk2 V c 4 t = (V c main_v3 : S32x32.Idx → EReal) := by
  obtain ⟨-, -, -, -, -, -, -, -, er, ec, -⟩ := idx t
  funext j
  show V c main_v3 (((cfg2.win 4).blk t).view.emb j) = V c main_v3 j
  refine congrArg (V c main_v3) ?_
  funext a; apply Fin.ext
  match a with
  | ⟨0, _⟩ => show win2_4.index t (0 : Fin 2) * 32 + 1 * (j 0).val = (j 0).val; omega
  | ⟨1, _⟩ => show win2_4.index t (1 : Fin 2) * 32 + 1 * (j 1).val = (j 1).val; omega

/-- Window 5's block at point t: its whole array. -/
theorem iblk_5 (c : Dev nD) (t : Fin cfg2.N) :
    iblk2 V c 5 t = (V c main_v9 : S1x32.Idx → EReal) := by
  obtain ⟨-, -, -, -, -, -, -, -, -, -, er, ec, -⟩ := idx t
  funext j
  show V c main_v9 (((cfg2.win 5).blk t).view.emb j) = V c main_v9 j
  refine congrArg (V c main_v9) ?_
  funext a; apply Fin.ext
  match a with
  | ⟨0, _⟩ => show win2_5.index t (0 : Fin 2) * 1 + 1 * (j 0).val = (j 0).val; omega
  | ⟨1, _⟩ => show win2_5.index t (1 : Fin 2) * 32 + 1 * (j 1).val = (j 1).val; omega

/-- Window 6's block at point t: its whole array. -/
theorem iblk_6 (c : Dev nD) (t : Fin cfg2.N) :
    iblk2 V c 6 t = (V c main_v4 : S32x32.Idx → EReal) := by
  obtain ⟨-, -, -, -, -, -, -, -, -, -, -, -, er, ec, -⟩ := idx t
  funext j
  show V c main_v4 (((cfg2.win 6).blk t).view.emb j) = V c main_v4 j
  refine congrArg (V c main_v4) ?_
  funext a; apply Fin.ext
  match a with
  | ⟨0, _⟩ => show win2_6.index t (0 : Fin 2) * 32 + 1 * (j 0).val = (j 0).val; omega
  | ⟨1, _⟩ => show win2_6.index t (1 : Fin 2) * 32 + 1 * (j 1).val = (j 1).val; omega

/-- Window 7's block at point t: its whole array. -/
theorem iblk_7 (c : Dev nD) (t : Fin cfg2.N) :
    iblk2 V c 7 t = (V c main_v10 : S1x32.Idx → EReal) := by
  obtain ⟨-, -, -, -, -, -, -, -, -, -, -, -, -, -, er, ec, -⟩ := idx t
  funext j
  show V c main_v10 (((cfg2.win 7).blk t).view.emb j) = V c main_v10 j
  refine congrArg (V c main_v10) ?_
  funext a; apply Fin.ext
  match a with
  | ⟨0, _⟩ => show win2_7.index t (0 : Fin 2) * 1 + 1 * (j 0).val = (j 0).val; omega
  | ⟨1, _⟩ => show win2_7.index t (1 : Fin 2) * 32 + 1 * (j 1).val = (j 1).val; omega

/-- Window 8's block at point t: its whole array. -/
theorem iblk_8 (c : Dev nD) (t : Fin cfg2.N) :
    iblk2 V c 8 t = (V c main_v5 : S32x32.Idx → EReal) := by
  obtain ⟨-, -, -, -, -, -, -, -, -, -, -, -, -, -, -, -, er, ec, -⟩ := idx t
  funext j
  show V c main_v5 (((cfg2.win 8).blk t).view.emb j) = V c main_v5 j
  refine congrArg (V c main_v5) ?_
  funext a; apply Fin.ext
  match a with
  | ⟨0, _⟩ => show win2_8.index t (0 : Fin 2) * 32 + 1 * (j 0).val = (j 0).val; omega
  | ⟨1, _⟩ => show win2_8.index t (1 : Fin 2) * 32 + 1 * (j 1).val = (j 1).val; omega

/-- Window 9's block at point t: its whole array. -/
theorem iblk_9 (c : Dev nD) (t : Fin cfg2.N) :
    iblk2 V c 9 t = (V c main_v11 : S1x32.Idx → EReal) := by
  obtain ⟨-, -, -, -, -, -, -, -, -, -, -, -, -, -, -, -, -, -, er, ec, -⟩ := idx t
  funext j
  show V c main_v11 (((cfg2.win 9).blk t).view.emb j) = V c main_v11 j
  refine congrArg (V c main_v11) ?_
  funext a; apply Fin.ext
  match a with
  | ⟨0, _⟩ => show win2_9.index t (0 : Fin 2) * 1 + 1 * (j 0).val = (j 0).val; omega
  | ⟨1, _⟩ => show win2_9.index t (1 : Fin 2) * 32 + 1 * (j 1).val = (j 1).val; omega

/-- Window 10's block at point t: the point's rows of its array. -/
theorem iblk_10 (c : Dev nD) (t : Fin cfg2.N) :
    iblk2 V c 10 t = rowsOf (blockRow 400 25 10000 (by decide) t) (V c main_arg14 : S10000x32.Idx → EReal) := by
  obtain ⟨-, -, -, -, -, -, -, -, -, -, -, -, -, -, -, -, -, -, -, -, er, ec, -⟩ := idx t
  funext j
  show V c main_arg14 (((cfg2.win 10).blk t).view.emb j) = V c main_arg14 (ix2 (blockRow 400 25 10000 (by decide) t (j 0)) (j 1))
  refine congrArg (V c main_arg14) ?_
  funext a; apply Fin.ext
  match a with
  | ⟨0, _⟩ => show win2_10.index t (0 : Fin 2) * 400 + 1 * (j 0).val = 400 * t.val + (j 0).val; omega
  | ⟨1, _⟩ => show win2_10.index t (1 : Fin 2) * 32 + 1 * (j 1).val = (j 1).val; omega

-- the side conditions of the host's two broadcasts the layers are spelt with
variable (hd : (⟨2, ![1, 32]⟩ : Shape).BroadcastsInDim ⟨2, ![10000, 32]⟩ ![0, 1])
  (h0 : (⟨0, ![]⟩ : Shape).BroadcastsInDim ⟨2, ![10000, 32]⟩ ![])

section Stored

variable (ρ : Fin 400 → Fin 10000) (A : FVec Ideal ⟨2, ![10000, 10000]⟩ .f32) (G : FVec Ideal ⟨2, ![10000, 32]⟩ .f32)
  (Wm Wl Wp Wq : FVec Ideal ⟨2, ![32, 32]⟩ .f32) (Bm Bl Bp Bq : FVec Ideal ⟨2, ![1, 32]⟩ .f32)
  (E Y : FVec Ideal ⟨2, ![10000, 32]⟩ .f32)

/-- The Gaussian sample mu + exp (½ · lv) · E from the propagated layer A · G. -/
def sampleOf : FVec Ideal ⟨2, ![10000, 32]⟩ .f32 :=
  addf (dense hd (propagate A G) Wm Bm) (mulf (Host.exp (scaled 0x3F000000#32 h0 (dense hd (propagate A G) Wl Bl))) E)

/-- The propagation on picked rows of A. -/
theorem prop_rows : k2_pay2 (F := Ideal) (rowsOf ρ A) G = rowsOf ρ (propagate A G) := by
  have e := propagate_rows (TM := 400) (M := 10000) (K := 10000) (N := 32) ρ bitsLt_bf16_f32 shapeCasts_S10000x32_S10000x32 A G
  rw [← e]; rfl

/-- The mean on picked rows. -/
theorem mean_rows : k2_pay3 (F := Ideal) (rowsOf ρ A) G Wm Bm = rowsOf ρ (dense hd (propagate A G) Wm Bm) := by
  have e := dense_rows (TM := 400) ρ shapeCasts_S32x32_S32x32 shapeCasts_S1x32_S1x32 broadcasts_S1x32_S400x32 hd (propagate A G) Wm Bm
  rw [← e, ← prop_rows ρ A G]; rfl

/-- The log-variance on picked rows. -/
theorem logvar_rows : k2_pay4 (F := Ideal) (rowsOf ρ A) G Wl Bl = rowsOf ρ (dense hd (propagate A G) Wl Bl) := by
  have e := dense_rows (TM := 400) ρ shapeCasts_S32x32_S32x32 shapeCasts_S1x32_S1x32 broadcasts_S1x32_S400x32 hd (propagate A G) Wl Bl
  rw [← e, ← prop_rows ρ A G]; rfl

/-- The sample on picked rows of A and of the noise. -/
theorem sample_rows : k2_pay5 (F := Ideal) (rowsOf ρ A) G Wm Bm Wl Bl (rowsOf ρ E) = rowsOf ρ (sampleOf hd h0 A G Wm Wl Bm Bl E) := by
  unfold sampleOf
  rw [← addf_rows, ← mulf_rows, ← exp_rows, ← scaled_rows (TM := 400) ρ 0x3F000000#32 h0, ← mean_rows hd ρ A G Wm Bm,
    ← logvar_rows hd ρ A G Wl Bl]
  rfl

/-- The head's hidden layer on picked rows. -/
theorem hidden_rows : k2_pay6 (F := Ideal) (rowsOf ρ A) G Wm Bm Wl Bl (rowsOf ρ E) Wp Bp
      = rowsOf ρ (relu h0 (dense hd (sampleOf hd h0 A G Wm Wl Bm Bl E) Wp Bp)) := by
  have e := dense_rows (TM := 400) ρ shapeCasts_S32x32_S32x32 shapeCasts_S1x32_S1x32 broadcasts_S1x32_S400x32 hd (sampleOf hd h0 A G Wm Wl Bm Bl E) Wp Bp
  have e2 := relu_rows (TM := 400) ρ h0 (dense hd (sampleOf hd h0 A G Wm Wl Bm Bl E) Wp Bp)
  rw [← e2, ← e, ← sample_rows hd h0 ρ A G Wm Wl Bm Bl E]; rfl

/-- The head's last layer on picked rows. -/
theorem last_rows : k2_pay1 (F := Ideal) (rowsOf ρ Y) Wq Bq = rowsOf ρ (dense hd Y Wq Bq) := by
  have e := dense_rows (TM := 400) ρ shapeCasts_S32x32_S32x32 shapeCasts_S1x32_S1x32 broadcasts_S1x32_S400x32 hd Y Wq Bq
  rw [← e]; rfl

end Stored

/-- The mean, from the contents the launch finds. -/
def mean (c : Dev nD) : FVec Ideal ⟨2, ![10000, 32]⟩ .f32 :=
  dense hd (propagate (V c main_arg1 : S10000x10000.Idx → EReal) (V c main_v13 : S10000x32.Idx → EReal))
    (V c main_v2 : S32x32.Idx → EReal) (V c main_v8 : S1x32.Idx → EReal)

/-- The log-variance, from the contents the launch finds. -/
def logvar (c : Dev nD) : FVec Ideal ⟨2, ![10000, 32]⟩ .f32 :=
  dense hd (propagate (V c main_arg1 : S10000x10000.Idx → EReal) (V c main_v13 : S10000x32.Idx → EReal))
    (V c main_v3 : S32x32.Idx → EReal) (V c main_v9 : S1x32.Idx → EReal)

/-- The sample, from the contents the launch finds. -/
def sampled (c : Dev nD) : FVec Ideal ⟨2, ![10000, 32]⟩ .f32 :=
  sampleOf hd h0 (V c main_arg1 : S10000x10000.Idx → EReal) (V c main_v13 : S10000x32.Idx → EReal)
    (V c main_v2 : S32x32.Idx → EReal) (V c main_v3 : S32x32.Idx → EReal) (V c main_v8 : S1x32.Idx → EReal)
    (V c main_v9 : S1x32.Idx → EReal) (V c main_arg14 : S10000x32.Idx → EReal)

/-- The projection, from the contents the launch finds. -/
def projected (c : Dev nD) : FVec Ideal ⟨2, ![10000, 32]⟩ .f32 :=
  dense hd (relu h0 (dense hd (sampled V hd h0 c) (V c main_v4 : S32x32.Idx → EReal) (V c main_v10 : S1x32.Idx → EReal)))
    (V c main_v5 : S32x32.Idx → EReal) (V c main_v11 : S1x32.Idx → EReal)

/-- What point t writes back of window 11 is block t of `projected`. -/
theorem flushed_11 (c : Dev nD) (t : Fin cfg2.N) :
    (dat2 V c).flushed 11 t = ((cfg2.win 11).blk t).view.read (Elt Ideal) (projected V hd h0 c) := by
  show (cfg2.win 11).cut (grid2.coords t) ((dat2 V c).after 11 t) = _
  rw [after2_11]
  unfold out2_11
  rw [View.canon_unit_zero hz]
  simp only [View.ld_unit_zero (S := S400x10000) hz, View.ld_unit_zero (S := S10000x32) hz, View.ld_unit_zero (S := S32x32) hz, View.ld_unit_zero (S := S1x32) hz, View.ld_unit_zero (S := S400x32) hz]
  rw [iblk_0, iblk_1, iblk_2, iblk_3, iblk_4, iblk_5, iblk_6, iblk_7, iblk_8, iblk_9, iblk_10, hidden_rows hd h0, last_rows hd]
  obtain ⟨-, -, -, -, -, -, -, -, -, -, -, -, -, -, -, -, -, -, -, -, -, -, er, ec, -⟩ := idx t
  funext j
  show projected V hd h0 c (ix2 (blockRow 400 25 10000 (by decide) t (j 0)) (j 1)) = projected V hd h0 c (((cfg2.win 11).blk t).view.emb j)
  refine congrArg (projected V hd h0 c) ?_
  funext a; apply Fin.ext
  match a with
  | ⟨0, _⟩ => show 400 * t.val + (j 0).val = win2_11.index t (0 : Fin 2) * 400 + 1 * (j 0).val; omega
  | ⟨1, _⟩ => show (j 1).val = win2_11.index t (1 : Fin 2) * 32 + 1 * (j 1).val; omega

/-- An index of window 11's array is in point t's block iff each coordinate is in the block's range on its axis. -/
theorem mem_blk_11 (t : Fin cfg2.N) (i : S10000x32.Idx) :
    i ∈ ((cfg2.win 11).blk t).view.set ↔ ∀ a : Fin 2, win2_11.index t a * S400x32.size a ≤ (i a).val
      ∧ (i a).val < win2_11.index t a * S400x32.size a + S400x32.size a := by
  show i ∈ ((View.whole main_v14_0).slice (win2_11.rect t)).set ↔ _
  rw [View.set_slice_whole, Rect.mem_set_unit]
  exact Iff.rfl

/-- Row i₀ of window 11's array lies in the block of point i₀ / 400: the blocks tile the array. -/
theorem cover_11 (i : S10000x32.Idx) :
    ∃ t : Fin cfg2.N, (cfg2.win 11).flush t = true ∧ i ∈ ((cfg2.win 11).blk t).view.set := by
  have hi0 : (i 0).val < 10000 := (i 0).isLt
  have hi1 : (i 1).val < 32 := (i 1).isLt
  have hq : (i 0).val / 400 < 25 := by omega
  refine ⟨⟨(i 0).val / 400, hq⟩, flush2_11 _, ?_⟩
  rw [mem_blk_11]
  obtain ⟨-, -, -, -, -, -, -, -, -, -, -, -, -, -, -, -, -, -, -, -, -, -, er, ec, -⟩ := idx ⟨(i 0).val / 400, hq⟩
  have er' : win2_11.index ⟨(i 0).val / 400, hq⟩ (0 : Fin 2) = (i 0).val / 400 := er
  intro a
  match a with
  | ⟨0, _⟩ =>
    show win2_11.index ⟨(i 0).val / 400, hq⟩ (0 : Fin 2) * 400 ≤ (i 0).val
      ∧ (i 0).val < win2_11.index ⟨(i 0).val / 400, hq⟩ (0 : Fin 2) * 400 + 400
    omega
  | ⟨1, _⟩ =>
    show win2_11.index ⟨(i 0).val / 400, hq⟩ (1 : Fin 2) * 32 ≤ (i 1).val
      ∧ (i 1).val < win2_11.index ⟨(i 0).val / 400, hq⟩ (1 : Fin 2) * 32 + 32
    omega

/-- Window 11's array after the launch is `projected` of the contents the launch found. -/
theorem final_11 (c : Dev nD) : (dat2 V c).arrAt 11 cfg2.N = projected V hd h0 c :=
  (dat2 V c).arrAt_eq_of_cover 11 (projected V hd h0 c) (fun t _ => flushed_11 V hd h0 c t) cover_11

/-- What point t writes back of window 12 is block t of `sampled`. -/
theorem flushed_12 (c : Dev nD) (t : Fin cfg2.N) :
    (dat2 V c).flushed 12 t = ((cfg2.win 12).blk t).view.read (Elt Ideal) (sampled V hd h0 c) := by
  show (cfg2.win 12).cut (grid2.coords t) ((dat2 V c).after 12 t) = _
  rw [after2_12]
  unfold out2_12
  rw [View.canon_unit_zero hz]
  simp only [View.ld_unit_zero (S := S400x10000) hz, View.ld_unit_zero (S := S10000x32) hz, View.ld_unit_zero (S := S32x32) hz, View.ld_unit_zero (S := S1x32) hz, View.ld_unit_zero (S := S400x32) hz]
  rw [iblk_0, iblk_1, iblk_2, iblk_3, iblk_4, iblk_5, iblk_10, sample_rows hd h0]
  obtain ⟨-, -, -, -, -, -, -, -, -, -, -, -, -, -, -, -, -, -, -, -, -, -, -, -, er, ec, -⟩ := idx t
  funext j
  show sampled V hd h0 c (ix2 (blockRow 400 25 10000 (by decide) t (j 0)) (j 1)) = sampled V hd h0 c (((cfg2.win 12).blk t).view.emb j)
  refine congrArg (sampled V hd h0 c) ?_
  funext a; apply Fin.ext
  match a with
  | ⟨0, _⟩ => show 400 * t.val + (j 0).val = win2_12.index t (0 : Fin 2) * 400 + 1 * (j 0).val; omega
  | ⟨1, _⟩ => show (j 1).val = win2_12.index t (1 : Fin 2) * 32 + 1 * (j 1).val; omega

/-- An index of window 12's array is in point t's block iff each coordinate is in the block's range on its axis. -/
theorem mem_blk_12 (t : Fin cfg2.N) (i : S10000x32.Idx) :
    i ∈ ((cfg2.win 12).blk t).view.set ↔ ∀ a : Fin 2, win2_12.index t a * S400x32.size a ≤ (i a).val
      ∧ (i a).val < win2_12.index t a * S400x32.size a + S400x32.size a := by
  show i ∈ ((View.whole main_v14_1).slice (win2_12.rect t)).set ↔ _
  rw [View.set_slice_whole, Rect.mem_set_unit]
  exact Iff.rfl

/-- Row i₀ of window 12's array lies in the block of point i₀ / 400: the blocks tile the array. -/
theorem cover_12 (i : S10000x32.Idx) :
    ∃ t : Fin cfg2.N, (cfg2.win 12).flush t = true ∧ i ∈ ((cfg2.win 12).blk t).view.set := by
  have hi0 : (i 0).val < 10000 := (i 0).isLt
  have hi1 : (i 1).val < 32 := (i 1).isLt
  have hq : (i 0).val / 400 < 25 := by omega
  refine ⟨⟨(i 0).val / 400, hq⟩, flush2_12 _, ?_⟩
  rw [mem_blk_12]
  obtain ⟨-, -, -, -, -, -, -, -, -, -, -, -, -, -, -, -, -, -, -, -, -, -, -, -, er, ec, -⟩ := idx ⟨(i 0).val / 400, hq⟩
  have er' : win2_12.index ⟨(i 0).val / 400, hq⟩ (0 : Fin 2) = (i 0).val / 400 := er
  intro a
  match a with
  | ⟨0, _⟩ =>
    show win2_12.index ⟨(i 0).val / 400, hq⟩ (0 : Fin 2) * 400 ≤ (i 0).val
      ∧ (i 0).val < win2_12.index ⟨(i 0).val / 400, hq⟩ (0 : Fin 2) * 400 + 400
    omega
  | ⟨1, _⟩ =>
    show win2_12.index ⟨(i 0).val / 400, hq⟩ (1 : Fin 2) * 32 ≤ (i 1).val
      ∧ (i 1).val < win2_12.index ⟨(i 0).val / 400, hq⟩ (1 : Fin 2) * 32 + 32
    omega

/-- Window 12's array after the launch is `sampled` of the contents the launch found. -/
theorem final_12 (c : Dev nD) : (dat2 V c).arrAt 12 cfg2.N = sampled V hd h0 c :=
  (dat2 V c).arrAt_eq_of_cover 12 (sampled V hd h0 c) (fun t _ => flushed_12 V hd h0 c t) cover_12

/-- What point t writes back of window 13 is block t of `mean`. -/
theorem flushed_13 (c : Dev nD) (t : Fin cfg2.N) :
    (dat2 V c).flushed 13 t = ((cfg2.win 13).blk t).view.read (Elt Ideal) (mean V hd c) := by
  show (cfg2.win 13).cut (grid2.coords t) ((dat2 V c).after 13 t) = _
  rw [after2_13]
  unfold out2_13
  rw [View.canon_unit_zero hz]
  simp only [View.ld_unit_zero (S := S400x10000) hz, View.ld_unit_zero (S := S10000x32) hz, View.ld_unit_zero (S := S32x32) hz, View.ld_unit_zero (S := S1x32) hz, View.ld_unit_zero (S := S400x32) hz]
  rw [iblk_0, iblk_1, iblk_2, iblk_3, mean_rows hd]
  obtain ⟨-, -, -, -, -, -, -, -, -, -, -, -, -, -, -, -, -, -, -, -, -, -, -, -, -, -, er, ec, -⟩ := idx t
  funext j
  show mean V hd c (ix2 (blockRow 400 25 10000 (by decide) t (j 0)) (j 1)) = mean V hd c (((cfg2.win 13).blk t).view.emb j)
  refine congrArg (mean V hd c) ?_
  funext a; apply Fin.ext
  match a with
  | ⟨0, _⟩ => show 400 * t.val + (j 0).val = win2_13.index t (0 : Fin 2) * 400 + 1 * (j 0).val; omega
  | ⟨1, _⟩ => show (j 1).val = win2_13.index t (1 : Fin 2) * 32 + 1 * (j 1).val; omega

/-- An index of window 13's array is in point t's block iff each coordinate is in the block's range on its axis. -/
theorem mem_blk_13 (t : Fin cfg2.N) (i : S10000x32.Idx) :
    i ∈ ((cfg2.win 13).blk t).view.set ↔ ∀ a : Fin 2, win2_13.index t a * S400x32.size a ≤ (i a).val
      ∧ (i a).val < win2_13.index t a * S400x32.size a + S400x32.size a := by
  show i ∈ ((View.whole main_v14_2).slice (win2_13.rect t)).set ↔ _
  rw [View.set_slice_whole, Rect.mem_set_unit]
  exact Iff.rfl

/-- Row i₀ of window 13's array lies in the block of point i₀ / 400: the blocks tile the array. -/
theorem cover_13 (i : S10000x32.Idx) :
    ∃ t : Fin cfg2.N, (cfg2.win 13).flush t = true ∧ i ∈ ((cfg2.win 13).blk t).view.set := by
  have hi0 : (i 0).val < 10000 := (i 0).isLt
  have hi1 : (i 1).val < 32 := (i 1).isLt
  have hq : (i 0).val / 400 < 25 := by omega
  refine ⟨⟨(i 0).val / 400, hq⟩, flush2_13 _, ?_⟩
  rw [mem_blk_13]
  obtain ⟨-, -, -, -, -, -, -, -, -, -, -, -, -, -, -, -, -, -, -, -, -, -, -, -, -, -, er, ec, -⟩ := idx ⟨(i 0).val / 400, hq⟩
  have er' : win2_13.index ⟨(i 0).val / 400, hq⟩ (0 : Fin 2) = (i 0).val / 400 := er
  intro a
  match a with
  | ⟨0, _⟩ =>
    show win2_13.index ⟨(i 0).val / 400, hq⟩ (0 : Fin 2) * 400 ≤ (i 0).val
      ∧ (i 0).val < win2_13.index ⟨(i 0).val / 400, hq⟩ (0 : Fin 2) * 400 + 400
    omega
  | ⟨1, _⟩ =>
    show win2_13.index ⟨(i 0).val / 400, hq⟩ (1 : Fin 2) * 32 ≤ (i 1).val
      ∧ (i 1).val < win2_13.index ⟨(i 0).val / 400, hq⟩ (1 : Fin 2) * 32 + 32
    omega

/-- Window 13's array after the launch is `mean` of the contents the launch found. -/
theorem final_13 (c : Dev nD) : (dat2 V c).arrAt 13 cfg2.N = mean V hd c :=
  (dat2 V c).arrAt_eq_of_cover 13 (mean V hd c) (fun t _ => flushed_13 V hd c t) cover_13

/-- What point t writes back of window 14 is block t of `logvar`. -/
theorem flushed_14 (c : Dev nD) (t : Fin cfg2.N) :
    (dat2 V c).flushed 14 t = ((cfg2.win 14).blk t).view.read (Elt Ideal) (logvar V hd c) := by
  show (cfg2.win 14).cut (grid2.coords t) ((dat2 V c).after 14 t) = _
  rw [after2_14]
  unfold out2_14
  rw [View.canon_unit_zero hz]
  simp only [View.ld_unit_zero (S := S400x10000) hz, View.ld_unit_zero (S := S10000x32) hz, View.ld_unit_zero (S := S32x32) hz, View.ld_unit_zero (S := S1x32) hz, View.ld_unit_zero (S := S400x32) hz]
  rw [iblk_0, iblk_1, iblk_4, iblk_5, logvar_rows hd]
  obtain ⟨-, -, -, -, -, -, -, -, -, -, -, -, -, -, -, -, -, -, -, -, -, -, -, -, -, -, -, -, er, ec⟩ := idx t
  funext j
  show logvar V hd c (ix2 (blockRow 400 25 10000 (by decide) t (j 0)) (j 1)) = logvar V hd c (((cfg2.win 14).blk t).view.emb j)
  refine congrArg (logvar V hd c) ?_
  funext a; apply Fin.ext
  match a with
  | ⟨0, _⟩ => show 400 * t.val + (j 0).val = win2_14.index t (0 : Fin 2) * 400 + 1 * (j 0).val; omega
  | ⟨1, _⟩ => show (j 1).val = win2_14.index t (1 : Fin 2) * 32 + 1 * (j 1).val; omega

/-- An index of window 14's array is in point t's block iff each coordinate is in the block's range on its axis. -/
theorem mem_blk_14 (t : Fin cfg2.N) (i : S10000x32.Idx) :
    i ∈ ((cfg2.win 14).blk t).view.set ↔ ∀ a : Fin 2, win2_14.index t a * S400x32.size a ≤ (i a).val
      ∧ (i a).val < win2_14.index t a * S400x32.size a + S400x32.size a := by
  show i ∈ ((View.whole main_v14_3).slice (win2_14.rect t)).set ↔ _
  rw [View.set_slice_whole, Rect.mem_set_unit]
  exact Iff.rfl

/-- Row i₀ of window 14's array lies in the block of point i₀ / 400: the blocks tile the array. -/
theorem cover_14 (i : S10000x32.Idx) :
    ∃ t : Fin cfg2.N, (cfg2.win 14).flush t = true ∧ i ∈ ((cfg2.win 14).blk t).view.set := by
  have hi0 : (i 0).val < 10000 := (i 0).isLt
  have hi1 : (i 1).val < 32 := (i 1).isLt
  have hq : (i 0).val / 400 < 25 := by omega
  refine ⟨⟨(i 0).val / 400, hq⟩, flush2_14 _, ?_⟩
  rw [mem_blk_14]
  obtain ⟨-, -, -, -, -, -, -, -, -, -, -, -, -, -, -, -, -, -, -, -, -, -, -, -, -, -, -, -, er, ec⟩ := idx ⟨(i 0).val / 400, hq⟩
  have er' : win2_14.index ⟨(i 0).val / 400, hq⟩ (0 : Fin 2) = (i 0).val / 400 := er
  intro a
  match a with
  | ⟨0, _⟩ =>
    show win2_14.index ⟨(i 0).val / 400, hq⟩ (0 : Fin 2) * 400 ≤ (i 0).val
      ∧ (i 0).val < win2_14.index ⟨(i 0).val / 400, hq⟩ (0 : Fin 2) * 400 + 400
    omega
  | ⟨1, _⟩ =>
    show win2_14.index ⟨(i 0).val / 400, hq⟩ (1 : Fin 2) * 32 ≤ (i 1).val
      ∧ (i 1).val < win2_14.index ⟨(i 0).val / 400, hq⟩ (1 : Fin 2) * 32 + 32
    omega

/-- Window 14's array after the launch is `logvar` of the contents the launch found. -/
theorem final_14 (c : Dev nD) : (dat2 V c).arrAt 14 cfg2.N = logvar V hd c :=
  (dat2 V c).arrAt_eq_of_cover 14 (logvar V hd c) (fun t _ => flushed_14 V hd c t) cover_14

end Cert.KernelIdeal.Launch2

end
-- ==== Proof.Spec.lean ====
/-
  A two-layer dense graph encoder with a Gaussian sample and a projection head, as one function of its fifteen
  arguments on the extended reals, in the host's spelling.

  With A the 10000 × 10000 adjacency matrix and x the 10000 × 128 features, and writing lin X W b for X · Wᵀ + b
  (b added to every row):

    g1 = lin x W1 b1                      g2 = lin (max (A · g1) 0) W2 b2         h = A · g2
    mu = lin h Wmu bmu                    lv = lin h Wlv blv
    xs = mu + exp (½ · lv) · eps          z  = lin (max (lin xs Wp1 bp1) 0) Wp2 bp2

  The results are z, xs, mu, lv. Each lin is spelt as the host spells it: the weight table transposed, a plain
  product, the bias laid as a row and broadcast down the rows.
-/
import Idealize.ShloMosaic.PureOps.Ideal
import Idealize.ShloMosaic.Lib.Pipeline.Value
import proofs.«179760_g63067299775180_cont_9to1_m_88_2_alg».proof.Proof.LibBlockRows

noncomputable section

namespace Cert.Encoder

open Idealize.ShloMosaic Cert.BlockRows

/-- The side conditions of the host's re-layings at this network's sizes. -/
structure Side : Prop where
  t128 : (⟨2, ![32, 128]⟩ : Shape).Transposes [1, 0] ⟨2, ![128, 32]⟩
  t32 : (⟨2, ![32, 32]⟩ : Shape).Transposes [1, 0] ⟨2, ![32, 32]⟩
  r : (⟨1, ![32]⟩ : Shape).BroadcastsInDim ⟨2, ![1, 32]⟩ ![1]
  d : (⟨2, ![1, 32]⟩ : Shape).BroadcastsInDim ⟨2, ![10000, 32]⟩ ![0, 1]
  z : (⟨0, ![]⟩ : Shape).BroadcastsInDim ⟨2, ![10000, 32]⟩ ![]

/-- An a × b matrix of extended reals. -/
abbrev Mat (a b : Nat) := FVec Ideal ⟨2, ![a, b]⟩ .f32
/-- A vector of n extended reals. -/
abbrev Vect (n : Nat) := FVec Ideal ⟨1, ![n]⟩ .f32

variable (s : Side)

/-- The bias vector laid as one row. -/
def biasRow (b : Vect 32) : Mat 1 32 := broadcastInDim ⟨2, ![1, 32]⟩ ![1] s.r b

/-- X · Wᵀ + b on 128 input features. -/
def lin128 (X : Mat 10000 128) (W : Mat 32 128) (b : Vect 32) : Mat 10000 32 :=
  dense s.d X (transpose ⟨2, ![128, 32]⟩ [1, 0] W s.t128) (biasRow s b)

/-- X · Wᵀ + b on 32 input features. -/
def lin32 (X : Mat 10000 32) (W : Mat 32 32) (b : Vect 32) : Mat 10000 32 :=
  dense s.d X (transpose ⟨2, ![32, 32]⟩ [1, 0] W s.t32) (biasRow s b)

/-- The first layer before propagation. -/
def g1 (x : Mat 10000 128) (W1 : Mat 32 128) (b1 : Vect 32) : Mat 10000 32 := lin128 s x W1 b1

/-- The second layer before propagation: the first layer propagated, cut at zero, and passed through lin. -/
def g2 (A : Mat 10000 10000) (x : Mat 10000 128) (W1 : Mat 32 128) (b1 : Vect 32) (W2 : Mat 32 32) (b2 : Vect 32) :
    Mat 10000 32 :=
  lin32 s (relu s.z (propagate A (g1 s x W1 b1))) W2 b2

/-- The encoder's hidden state: the second layer propagated. -/
def hid (A : Mat 10000 10000) (x : Mat 10000 128) (W1 : Mat 32 128) (b1 : Vect 32) (W2 : Mat 32 32) (b2 : Vect 32) :
    Mat 10000 32 :=
  propagate A (g2 s A x W1 b1 W2 b2)

/-- The Gaussian sample mu + exp (½ · lv) · eps. -/
def sample (mu lv eps : Mat 10000 32) : Mat 10000 32 :=
  addf mu (mulf (Host.exp (scaled 0x3F000000#32 s.z lv)) eps)

/-- The projection head: lin, cut at zero, lin. -/
def head (xs : Mat 10000 32) (Wp1 : Mat 32 32) (bp1 : Vect 32) (Wp2 : Mat 32 32) (bp2 : Vect 32) : Mat 10000 32 :=
  lin32 s (relu s.z (lin32 s xs Wp1 bp1)) Wp2 bp2

/-- The encoder's fifteen arguments, in the order the programs take them. -/
structure Args where
  x : Mat 10000 128
  A : Mat 10000 10000
  W1 : Mat 32 128
  b1 : Vect 32
  W2 : Mat 32 32
  b2 : Vect 32
  Wmu : Mat 32 32
  bmu : Vect 32
  Wlv : Mat 32 32
  blv : Vect 32
  Wp1 : Mat 32 32
  bp1 : Vect 32
  Wp2 : Mat 32 32
  bp2 : Vect 32
  eps : Mat 10000 32

/-- The mean of the Gaussian: lin of the hidden state. -/
def Args.mu (a : Args) : Mat 10000 32 := lin32 s (hid s a.A a.x a.W1 a.b1 a.W2 a.b2) a.Wmu a.bmu

/-- The log-variance of the Gaussian: another lin of the hidden state. -/
def Args.lv (a : Args) : Mat 10000 32 := lin32 s (hid s a.A a.x a.W1 a.b1 a.W2 a.b2) a.Wlv a.blv

/-- The sample. -/
def Args.xs (a : Args) : Mat 10000 32 := sample s (a.mu s) (a.lv s) a.eps

/-- The projection of the sample. -/
def Args.z (a : Args) : Mat 10000 32 := head s (a.xs s) a.Wp1 a.bp1 a.Wp2 a.bp2

end Cert.Encoder

end
-- ==== Proof.KernelValue.lean ====
/-
  The kernel program's four result arrays as the encoder's functions of its fifteen argument arrays.

  The contents after the last launch are a fold through the three launches. Read backwards: the third launch leaves
  its four outputs at the projection, the sample, the mean and the log-variance of what it found; it found the
  adjacency matrix and the noise as launched, the weight tables transposed and the biases laid as rows by the host
  re-layings before the first launch, and the second layer where the second launch left it; the second launch in
  turn found the first layer where the first launch left it. A bias reshaped to one row is the bias broadcast into a
  row, which is how the encoder spells it. Substituting, each result is the encoder's function of the arguments.
-/
import proofs.«179760_g63067299775180_cont_9to1_m_88_2_alg».proof.Proof.KernelRun
import proofs.«179760_g63067299775180_cont_9to1_m_88_2_alg».proof.Proof.Launch0
import proofs.«179760_g63067299775180_cont_9to1_m_88_2_alg».proof.Proof.Launch1
import proofs.«179760_g63067299775180_cont_9to1_m_88_2_alg».proof.Proof.Launch2
import proofs.«179760_g63067299775180_cont_9to1_m_88_2_alg».proof.Proof.Spec
import Idealize.ShloMosaic.Lib.StableHlo.Run
import Idealize.ShloMosaic.PureOps.Ideal

set_option maxRecDepth 16384

noncomputable section

namespace Cert.KernelIdeal.Encoded

open Idealize.ShloMosaic Idealize.ShloMosaic.TcCoe Idealize.SL.Sem Idealize.ShloMosaic.StableHlo
open Idealize.ShloMosaic.Pipeline (Dat Cfg Window)
open Cert.KernelIdeal Cert.KernelIdeal.Gen Cert.Encoder Cert.BlockRows

variable (m : (ℓ : Loc nD τ sig) → Buf (Elt Ideal) ℓ) (ρ : Dev nD → PrngReg)

/-- The fifteen argument arrays of a memory, on one device. -/
def args (c : Dev nD) : Args where
  x := m ((c.tc : Thread nD τ).loc main_arg0)
  A := m ((c.tc : Thread nD τ).loc main_arg1)
  W1 := m ((c.tc : Thread nD τ).loc main_arg2)
  b1 := m ((c.tc : Thread nD τ).loc main_arg3)
  W2 := m ((c.tc : Thread nD τ).loc main_arg4)
  b2 := m ((c.tc : Thread nD τ).loc main_arg5)
  Wmu := m ((c.tc : Thread nD τ).loc main_arg6)
  bmu := m ((c.tc : Thread nD τ).loc main_arg7)
  Wlv := m ((c.tc : Thread nD τ).loc main_arg8)
  blv := m ((c.tc : Thread nD τ).loc main_arg9)
  Wp1 := m ((c.tc : Thread nD τ).loc main_arg10)
  bp1 := m ((c.tc : Thread nD τ).loc main_arg11)
  Wp2 := m ((c.tc : Thread nD τ).loc main_arg12)
  bp2 := m ((c.tc : Thread nD τ).loc main_arg13)
  eps := m ((c.tc : Thread nD τ).loc main_arg14)

/-! ## What the first launch finds: the arguments, the transposed tables, the bias rows -/

theorem V1_arg0 (c : Dev nD) : (V1 m ρ c main_arg0 : S10000x128.Idx → EReal) = m ((c.tc : Thread nD τ).loc main_arg0) := by
  dsimp only [V1, W1, W0, hostOps0]; after_results <;> rfl
theorem V1_arg1 (c : Dev nD) : (V1 m ρ c main_arg1 : S10000x10000.Idx → EReal) = m ((c.tc : Thread nD τ).loc main_arg1) := by
  dsimp only [V1, W1, W0, hostOps0]; after_results <;> rfl
theorem V1_arg14 (c : Dev nD) : (V1 m ρ c main_arg14 : S10000x32.Idx → EReal) = m ((c.tc : Thread nD τ).loc main_arg14) := by
  dsimp only [V1, W1, W0, hostOps0]; after_results <;> rfl
theorem V1_v0 (c : Dev nD) : (V1 m ρ c main_v0 : S128x32.Idx → EReal) = transpose S128x32 [1, 0] (m ((c.tc : Thread nD τ).loc main_arg2)) transposes_S32x128_S128x32_1_0 := by
  dsimp only [V1, W1, W0, hostOps0]; after_results <;> rfl
theorem V1_v1 (c : Dev nD) : (V1 m ρ c main_v1 : S32x32.Idx → EReal) = transpose S32x32 [1, 0] (m ((c.tc : Thread nD τ).loc main_arg4)) transposes_S32x32_S32x32_1_0 := by
  dsimp only [V1, W1, W0, hostOps0]; after_results <;> rfl
theorem V1_v2 (c : Dev nD) : (V1 m ρ c main_v2 : S32x32.Idx → EReal) = transpose S32x32 [1, 0] (m ((c.tc : Thread nD τ).loc main_arg6)) transposes_S32x32_S32x32_1_0 := by
  dsimp only [V1, W1, W0, hostOps0]; after_results <;> rfl
theorem V1_v3 (c : Dev nD) : (V1 m ρ c main_v3 : S32x32.Idx → EReal) = transpose S32x32 [1, 0] (m ((c.tc : Thread nD τ).loc main_arg8)) transposes_S32x32_S32x32_1_0 := by
  dsimp only [V1, W1, W0, hostOps0]; after_results <;> rfl
theorem V1_v4 (c : Dev nD) : (V1 m ρ c main_v4 : S32x32.Idx → EReal) = transpose S32x32 [1, 0] (m ((c.tc : Thread nD τ).loc main_arg10)) transposes_S32x32_S32x32_1_0 := by
  dsimp only [V1, W1, W0, hostOps0]; after_results <;> rfl
theorem V1_v5 (c : Dev nD) : (V1 m ρ c main_v5 : S32x32.Idx → EReal) = transpose S32x32 [1, 0] (m ((c.tc : Thread nD τ).loc main_arg12)) transposes_S32x32_S32x32_1_0 := by
  dsimp only [V1, W1, W0, hostOps0]; after_results <;> rfl
theorem V1_v6 (c : Dev nD) : (V1 m ρ c main_v6 : S1x32.Idx → EReal) = shapeCast S1x32 (m ((c.tc : Thread nD τ).loc main_arg3)) shapeCasts_S32_S1x32 := by
  dsimp only [V1, W1, W0, hostOps0]; after_results <;> rfl
theorem V1_v7 (c : Dev nD) : (V1 m ρ c main_v7 : S1x32.Idx → EReal) = shapeCast S1x32 (m ((c.tc : Thread nD τ).loc main_arg5)) shapeCasts_S32_S1x32 := by
  dsimp only [V1, W1, W0, hostOps0]; after_results <;> rfl
theorem V1_v8 (c : Dev nD) : (V1 m ρ c main_v8 : S1x32.Idx → EReal) = shapeCast S1x32 (m ((c.tc : Thread nD τ).loc main_arg7)) shapeCasts_S32_S1x32 := by
  dsimp only [V1, W1, W0, hostOps0]; after_results <;> rfl
theorem V1_v9 (c : Dev nD) : (V1 m ρ c main_v9 : S1x32.Idx → EReal) = shapeCast S1x32 (m ((c.tc : Thread nD τ).loc main_arg9)) shapeCasts_S32_S1x32 := by
  dsimp only [V1, W1, W0, hostOps0]; after_results <;> rfl
theorem V1_v10 (c : Dev nD) : (V1 m ρ c main_v10 : S1x32.Idx → EReal) = shapeCast S1x32 (m ((c.tc : Thread nD τ).loc main_arg11)) shapeCasts_S32_S1x32 := by
  dsimp only [V1, W1, W0, hostOps0]; after_results <;> rfl
theorem V1_v11 (c : Dev nD) : (V1 m ρ c main_v11 : S1x32.Idx → EReal) = shapeCast S1x32 (m ((c.tc : Thread nD τ).loc main_arg13)) shapeCasts_S32_S1x32 := by
  dsimp only [V1, W1, W0, hostOps0]; after_results <;> rfl

/-! ## What the second launch finds of them: the first launch touches none of these -/

theorem V2_arg1 (c : Dev nD) : (V2 m ρ c main_arg1 : S10000x10000.Idx → EReal) = m ((c.tc : Thread nD τ).loc main_arg1) :=
  (W2_of_ne m ρ c main_arg1 (by decide)).trans (V1_arg1 m ρ c)
theorem V2_v1 (c : Dev nD) : (V2 m ρ c main_v1 : S32x32.Idx → EReal) = transpose S32x32 [1, 0] (m ((c.tc : Thread nD τ).loc main_arg4)) transposes_S32x32_S32x32_1_0 :=
  (W2_of_ne m ρ c main_v1 (by decide)).trans (V1_v1 m ρ c)
theorem V2_v7 (c : Dev nD) : (V2 m ρ c main_v7 : S1x32.Idx → EReal) = shapeCast S1x32 (m ((c.tc : Thread nD τ).loc main_arg5)) shapeCasts_S32_S1x32 :=
  (W2_of_ne m ρ c main_v7 (by decide)).trans (V1_v7 m ρ c)
theorem V2_v2 (c : Dev nD) : (V2 m ρ c main_v2 : S32x32.Idx → EReal) = transpose S32x32 [1, 0] (m ((c.tc : Thread nD τ).loc main_arg6)) transposes_S32x32_S32x32_1_0 :=
  (W2_of_ne m ρ c main_v2 (by decide)).trans (V1_v2 m ρ c)
theorem V2_v8 (c : Dev nD) : (V2 m ρ c main_v8 : S1x32.Idx → EReal) = shapeCast S1x32 (m ((c.tc : Thread nD τ).loc main_arg7)) shapeCasts_S32_S1x32 :=
  (W2_of_ne m ρ c main_v8 (by decide)).trans (V1_v8 m ρ c)
theorem V2_v3 (c : Dev nD) : (V2 m ρ c main_v3 : S32x32.Idx → EReal) = transpose S32x32 [1, 0] (m ((c.tc : Thread nD τ).loc main_arg8)) transposes_S32x32_S32x32_1_0 :=
  (W2_of_ne m ρ c main_v3 (by decide)).trans (V1_v3 m ρ c)
theorem V2_v9 (c : Dev nD) : (V2 m ρ c main_v9 : S1x32.Idx → EReal) = shapeCast S1x32 (m ((c.tc : Thread nD τ).loc main_arg9)) shapeCasts_S32_S1x32 :=
  (W2_of_ne m ρ c main_v9 (by decide)).trans (V1_v9 m ρ c)
theorem V2_v4 (c : Dev nD) : (V2 m ρ c main_v4 : S32x32.Idx → EReal) = transpose S32x32 [1, 0] (m ((c.tc : Thread nD τ).loc main_arg10)) transposes_S32x32_S32x32_1_0 :=
  (W2_of_ne m ρ c main_v4 (by decide)).trans (V1_v4 m ρ c)
theorem V2_v10 (c : Dev nD) : (V2 m ρ c main_v10 : S1x32.Idx → EReal) = shapeCast S1x32 (m ((c.tc : Thread nD τ).loc main_arg11)) shapeCasts_S32_S1x32 :=
  (W2_of_ne m ρ c main_v10 (by decide)).trans (V1_v10 m ρ c)
theorem V2_v5 (c : Dev nD) : (V2 m ρ c main_v5 : S32x32.Idx → EReal) = transpose S32x32 [1, 0] (m ((c.tc : Thread nD τ).loc main_arg12)) transposes_S32x32_S32x32_1_0 :=
  (W2_of_ne m ρ c main_v5 (by decide)).trans (V1_v5 m ρ c)
theorem V2_v11 (c : Dev nD) : (V2 m ρ c main_v11 : S1x32.Idx → EReal) = shapeCast S1x32 (m ((c.tc : Thread nD τ).loc main_arg13)) shapeCasts_S32_S1x32 :=
  (W2_of_ne m ρ c main_v11 (by decide)).trans (V1_v11 m ρ c)
theorem V2_arg14 (c : Dev nD) : (V2 m ρ c main_arg14 : S10000x32.Idx → EReal) = m ((c.tc : Thread nD τ).loc main_arg14) :=
  (W2_of_ne m ρ c main_arg14 (by decide)).trans (V1_arg14 m ρ c)

/-! ## What the third launch finds of them: the second launch touches none of these but the adjacency matrix, which
    it only reads -/

theorem V3_v2 (c : Dev nD) : (V3 m ρ c main_v2 : S32x32.Idx → EReal) = transpose S32x32 [1, 0] (m ((c.tc : Thread nD τ).loc main_arg6)) transposes_S32x32_S32x32_1_0 :=
  (W3_of_ne m ρ c main_v2 (by decide)).trans (V2_v2 m ρ c)
theorem V3_v8 (c : Dev nD) : (V3 m ρ c main_v8 : S1x32.Idx → EReal) = shapeCast S1x32 (m ((c.tc : Thread nD τ).loc main_arg7)) shapeCasts_S32_S1x32 :=
  (W3_of_ne m ρ c main_v8 (by decide)).trans (V2_v8 m ρ c)
theorem V3_v3 (c : Dev nD) : (V3 m ρ c main_v3 : S32x32.Idx → EReal) = transpose S32x32 [1, 0] (m ((c.tc : Thread nD τ).loc main_arg8)) transposes_S32x32_S32x32_1_0 :=
  (W3_of_ne m ρ c main_v3 (by decide)).trans (V2_v3 m ρ c)
theorem V3_v9 (c : Dev nD) : (V3 m ρ c main_v9 : S1x32.Idx → EReal) = shapeCast S1x32 (m ((c.tc : Thread nD τ).loc main_arg9)) shapeCasts_S32_S1x32 :=
  (W3_of_ne m ρ c main_v9 (by decide)).trans (V2_v9 m ρ c)
theorem V3_v4 (c : Dev nD) : (V3 m ρ c main_v4 : S32x32.Idx → EReal) = transpose S32x32 [1, 0] (m ((c.tc : Thread nD τ).loc main_arg10)) transposes_S32x32_S32x32_1_0 :=
  (W3_of_ne m ρ c main_v4 (by decide)).trans (V2_v4 m ρ c)
theorem V3_v10 (c : Dev nD) : (V3 m ρ c main_v10 : S1x32.Idx → EReal) = shapeCast S1x32 (m ((c.tc : Thread nD τ).loc main_arg11)) shapeCasts_S32_S1x32 :=
  (W3_of_ne m ρ c main_v10 (by decide)).trans (V2_v10 m ρ c)
theorem V3_v5 (c : Dev nD) : (V3 m ρ c main_v5 : S32x32.Idx → EReal) = transpose S32x32 [1, 0] (m ((c.tc : Thread nD τ).loc main_arg12)) transposes_S32x32_S32x32_1_0 :=
  (W3_of_ne m ρ c main_v5 (by decide)).trans (V2_v5 m ρ c)
theorem V3_v11 (c : Dev nD) : (V3 m ρ c main_v11 : S1x32.Idx → EReal) = shapeCast S1x32 (m ((c.tc : Thread nD τ).loc main_arg13)) shapeCasts_S32_S1x32 :=
  (W3_of_ne m ρ c main_v11 (by decide)).trans (V2_v11 m ρ c)
theorem V3_arg14 (c : Dev nD) : (V3 m ρ c main_arg14 : S10000x32.Idx → EReal) = m ((c.tc : Thread nD τ).loc main_arg14) :=
  (W3_of_ne m ρ c main_arg14 (by decide)).trans (V2_arg14 m ρ c)
theorem V3_arg1 (c : Dev nD) : (V3 m ρ c main_arg1 : S10000x10000.Idx → EReal) = m ((c.tc : Thread nD τ).loc main_arg1) :=
  ((W3_arr m ρ c 0).trans (((dat1 (V2 m ρ) c).arrAt_in 0 rfl _).trans (A_eq1 (V2 m ρ) c 0))).trans (V2_arg1 m ρ c)

variable (s : Side)

/-! ## The layers between the launches -/

/-- The second launch finds the first layer where the first launch left it. -/
theorem first (c : Dev nD) :
    (V2 m ρ c main_v12 : S10000x32.Idx → EReal) = g1 s (args m c).x (args m c).W1 (args m c).b1 := by
  refine (W2_arr m ρ c 3).trans ((Launch0.final_3 (V1 m ρ) s.d c).trans ?_)
  unfold Launch0.layer
  rw [V1_arg0, V1_v0, V1_v6]
  simp only [reshape_row (h1 := s.r)]
  rfl

/-- The third launch finds the second layer where the second launch left it. -/
theorem second (c : Dev nD) :
    (V3 m ρ c main_v13 : S10000x32.Idx → EReal)
      = g2 s (args m c).A (args m c).x (args m c).W1 (args m c).b1 (args m c).W2 (args m c).b2 := by
  refine (W3_arr m ρ c 4).trans ((Launch1.final_4 (V2 m ρ) s.d s.z c).trans ?_)
  unfold Launch1.layer
  rw [V2_arg1, first m ρ s, V2_v1, V2_v7]
  simp only [reshape_row (h1 := s.r)]
  rfl

/-! ## The four results -/

theorem result_mu (c : Dev nD) :
    (W4 m ρ c (Proc.devRef .tc main_v14_2) : S10000x32.Idx → EReal) = (args m c).mu s := by
  refine (W4_arr m ρ c 13).trans ((Launch2.final_13 (V3 m ρ) s.d c).trans ?_)
  unfold Launch2.mean
  rw [V3_arg1, second m ρ s, V3_v2, V3_v8]
  simp only [reshape_row (h1 := s.r)]
  rfl

theorem result_lv (c : Dev nD) :
    (W4 m ρ c (Proc.devRef .tc main_v14_3) : S10000x32.Idx → EReal) = (args m c).lv s := by
  refine (W4_arr m ρ c 14).trans ((Launch2.final_14 (V3 m ρ) s.d c).trans ?_)
  unfold Launch2.logvar
  rw [V3_arg1, second m ρ s, V3_v3, V3_v9]
  simp only [reshape_row (h1 := s.r)]
  rfl

theorem result_xs (c : Dev nD) :
    (W4 m ρ c (Proc.devRef .tc main_v14_1) : S10000x32.Idx → EReal) = (args m c).xs s := by
  refine (W4_arr m ρ c 12).trans ((Launch2.final_12 (V3 m ρ) s.d s.z c).trans ?_)
  unfold Launch2.sampled
  rw [V3_arg1, second m ρ s, V3_v2, V3_v8, V3_v3, V3_v9, V3_arg14]
  simp only [reshape_row (h1 := s.r)]
  rfl

theorem result_z (c : Dev nD) :
    (W4 m ρ c (Proc.devRef .tc main_v14_0) : S10000x32.Idx → EReal) = (args m c).z s := by
  refine (W4_arr m ρ c 11).trans ((Launch2.final_11 (V3 m ρ) s.d s.z c).trans ?_)
  unfold Launch2.projected Launch2.sampled
  rw [V3_arg1, second m ρ s, V3_v2, V3_v8, V3_v3, V3_v9, V3_arg14, V3_v4, V3_v10, V3_v5, V3_v11]
  simp only [reshape_row (h1 := s.r)]
  rfl

/-- Every weakly fair execution of the kernel program terminates with its results at the encoder's four functions
    of the argument arrays and the arguments unchanged. -/
theorem run : θ_run defs (onTc (τ := τ) (main (F := Ideal))) ⟨m, fun _ => 0, ρ⟩ fun r => ∀ c : Dev nD,
      (r.2.mem ((c.tc : Thread nD τ).loc main_v14_0) = (args m c).z s
      ∧ r.2.mem ((c.tc : Thread nD τ).loc main_v14_1) = (args m c).xs s
      ∧ r.2.mem ((c.tc : Thread nD τ).loc main_v14_2) = (args m c).mu s
      ∧ r.2.mem ((c.tc : Thread nD τ).loc main_v14_3) = (args m c).lv s)
      ∧ (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c =>
      ⟨⟨(h c).1.trans (result_z m ρ s c), (h c).2.1.trans (result_xs m ρ s c), (h c).2.2.1.trans (result_mu m ρ s c),
        (h c).2.2.2.1.trans (result_lv m ρ s c)⟩, (h c).2.2.2.2⟩)
    (Cert.KernelIdeal.Named.run (F := Ideal) m ρ)

end Cert.KernelIdeal.Encoded

end
-- ==== Proof.RefValue.lean ====
/-
  The reference program's run read as the encoder: its four result arrays are the encoder's projection, sample,
  mean and log-variance of its fifteen argument arrays. The run's own terms are the host operations composed, and
  the encoder is defined in the same spelling, so each equation is by unfolding.
-/
import proofs.«179760_g63067299775180_cont_9to1_m_88_2_alg».proof.Proof.Gen.ReferenceIdeal.Run
import proofs.«179760_g63067299775180_cont_9to1_m_88_2_alg».proof.Proof.Spec

set_option maxRecDepth 16384

noncomputable section

namespace Cert.ReferenceIdeal.Encoded

open Cert.ReferenceIdeal Cert.ReferenceIdeal.Gen Idealize.ShloMosaic Idealize.ShloMosaic.TcCoe Idealize.SL.Sem
open Cert.Encoder Cert.BlockRows

/-- The side conditions of the host's re-layings, from the program's stated facts. -/
theorem side : Side :=
  ⟨transposes_S32x128_S128x32_1_0, transposes_S32x32_S32x32_1_0, bcast_S32_S1x32_1, bcast_S1x32_S10000x32_0_1, bcast_S_S10000x32⟩

/-- The fifteen argument arrays of a memory, on one device. -/
def args (m : (ℓ : Loc nD τ sig) → Buf (Elt Ideal) ℓ) (c : Dev nD) : Args where
  x := m ((c.tc : Thread nD τ).loc main_arg0)
  A := m ((c.tc : Thread nD τ).loc main_arg1)
  W1 := m ((c.tc : Thread nD τ).loc main_arg2)
  b1 := m ((c.tc : Thread nD τ).loc main_arg3)
  W2 := m ((c.tc : Thread nD τ).loc main_arg4)
  b2 := m ((c.tc : Thread nD τ).loc main_arg5)
  Wmu := m ((c.tc : Thread nD τ).loc main_arg6)
  bmu := m ((c.tc : Thread nD τ).loc main_arg7)
  Wlv := m ((c.tc : Thread nD τ).loc main_arg8)
  blv := m ((c.tc : Thread nD τ).loc main_arg9)
  Wp1 := m ((c.tc : Thread nD τ).loc main_arg10)
  bp1 := m ((c.tc : Thread nD τ).loc main_arg11)
  Wp2 := m ((c.tc : Thread nD τ).loc main_arg12)
  bp2 := m ((c.tc : Thread nD τ).loc main_arg13)
  eps := m ((c.tc : Thread nD τ).loc main_arg14)

/-- Every weakly fair execution of the reference terminates with its results at the encoder's four functions of
    the argument arrays and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      (r.2.mem ((c.tc : Thread nD τ).loc main_v38) = (args m c).z side
      ∧ r.2.mem ((c.tc : Thread nD τ).loc main_v27) = (args m c).xs side
      ∧ r.2.mem ((c.tc : Thread nD τ).loc main_v17) = (args m c).mu side
      ∧ r.2.mem ((c.tc : Thread nD τ).loc main_v22) = (args m c).lv side)
      ∧ (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c =>
      ⟨⟨(h c).1.trans rfl, (h c).2.1.trans rfl, (h c).2.2.1.trans rfl, (h c).2.2.2.1.trans rfl⟩, (h c).2.2.2.2⟩)
    (Cert.ReferenceIdeal.Value.run (F := Ideal) m ρ)

end Cert.ReferenceIdeal.Encoded

end
-- ==== Proof.lean ====
/-
  The kernel program computes the reference's dense graph encoder.

  Both programs take the features x, the adjacency matrix A, six weight tables with their biases and the noise
  eps, and return the projection z, the sample xs, the mean mu and the log-variance lv of

      g1 = x · W1ᵀ + b1            g2 = max (A · g1) 0 · W2ᵀ + b2            h = A · g2
      mu = h · Wmuᵀ + bmu          lv = h · Wlvᵀ + blv
      xs = mu + exp (½ · lv) · eps          z = max (xs · Wp1ᵀ + bp1) 0 · Wp2ᵀ + bp2

  The reference is this formula operation by operation. The kernel program transposes the tables and lays the
  biases as rows on the host, then runs three launches: the first computes g1 in one block, the second g2 in 25
  blocks of 400 rows, the third mu, lv, xs and z in 25 blocks of 400 rows, each block from the matching 400 rows
  of A (and of eps) and the whole of the previous layer. Every step of the formula acts on each row separately, so
  a block's rows of a layer are the layer of the block's rows; the blocks tile the 10000 rows; and on the extended
  reals the kernel's change of float format before the two large products is the identity. No law of arithmetic
  beyond that is used, so the inputs' finiteness is never opened.

  The three frames are the programs' runs with the results dropped; the idealization rewrote nothing.
-/
import proofs.«179760_g63067299775180_cont_9to1_m_88_2_alg».proof.Defs
import proofs.«179760_g63067299775180_cont_9to1_m_88_2_alg».proof.Proof.Gen.Kernel
import proofs.«179760_g63067299775180_cont_9to1_m_88_2_alg».proof.Proof.Gen.Kernel.Skeleton
import proofs.«179760_g63067299775180_cont_9to1_m_88_2_alg».proof.Proof.Gen.Kernel.Launch
import proofs.«179760_g63067299775180_cont_9to1_m_88_2_alg».proof.Proof.Gen.Kernel.Points
import proofs.«179760_g63067299775180_cont_9to1_m_88_2_alg».proof.Proof.Gen.Kernel.Frame
import proofs.«179760_g63067299775180_cont_9to1_m_88_2_alg».proof.Proof.Gen.KernelIdeal
import proofs.«179760_g63067299775180_cont_9to1_m_88_2_alg».proof.Proof.Gen.KernelIdeal.Skeleton
import proofs.«179760_g63067299775180_cont_9to1_m_88_2_alg».proof.Proof.Gen.KernelIdeal.Launch
import proofs.«179760_g63067299775180_cont_9to1_m_88_2_alg».proof.Proof.Gen.KernelIdeal.Points
import proofs.«179760_g63067299775180_cont_9to1_m_88_2_alg».proof.Proof.Gen.KernelIdeal.Frame
import proofs.«179760_g63067299775180_cont_9to1_m_88_2_alg».proof.Proof.Gen.ReferenceIdeal
import proofs.«179760_g63067299775180_cont_9to1_m_88_2_alg».proof.Proof.Gen.Pre_finite_inputs
import proofs.«179760_g63067299775180_cont_9to1_m_88_2_alg».proof.Proof.Gen.ReferenceIdeal.Run
import proofs.«179760_g63067299775180_cont_9to1_m_88_2_alg».proof.Proof.KernelValue
import proofs.«179760_g63067299775180_cont_9to1_m_88_2_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem

/-- The kernel program as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run with the results dropped. -/
theorem frame_reference : Cert.frame_ReferenceIdeal := fun m ρ _ =>
  (θ_run Cert.ReferenceIdeal.defs _ _).mono (fun _ h c => (h c).2) (Cert.ReferenceIdeal.Encoded.run m ρ)

/-- From memories agreeing on the fifteen arguments both programs end with the encoder's projection, sample, mean
    and log-variance of those arguments. -/
theorem algebraic : Cert.algebraic_KernelIdeal_ReferenceIdeal := by
  intro m ρ m' ρ' _ hagree
  refine ⟨fun c => (Cert.KernelIdeal.Encoded.args m c).z Cert.ReferenceIdeal.Encoded.side,
    fun c => (Cert.KernelIdeal.Encoded.args m c).xs Cert.ReferenceIdeal.Encoded.side,
    fun c => (Cert.KernelIdeal.Encoded.args m c).mu Cert.ReferenceIdeal.Encoded.side,
    fun c => (Cert.KernelIdeal.Encoded.args m c).lv Cert.ReferenceIdeal.Encoded.side, ?_, ?_⟩
  · exact (θ_run Cert.KernelIdeal.defs _ _).mono
      (fun r h c => ⟨(h c).1.1, (h c).1.2.1, (h c).1.2.2.1, (h c).1.2.2.2, (h c).2⟩)
      (Cert.KernelIdeal.Encoded.run m ρ Cert.ReferenceIdeal.Encoded.side)
  · refine (θ_run Cert.ReferenceIdeal.defs _ _).mono (fun r h c => ?_) (Cert.ReferenceIdeal.Encoded.run m' ρ')
    have ea : Cert.ReferenceIdeal.Encoded.args m' c = Cert.KernelIdeal.Encoded.args m c := by
      obtain ⟨e0, e1, e2, e3, e4, e5, e6, e7, e8, e9, e10, e11, e12, e13, e14⟩ := hagree c
      unfold Cert.ReferenceIdeal.Encoded.args Cert.KernelIdeal.Encoded.args
      rw [e0, e1, e2, e3, e4, e5, e6, e7, e8, e9, e10, e11, e12, e13, e14]
    beta_reduce
    rw [← ea]
    exact ⟨(h c).1.1, (h c).1.2.1, (h c).1.2.2.1, (h c).1.2.2.2, (h c).2⟩

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
